-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x256 : Shape := ⟨2, ![128, 256]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S16384x16384 .f32) (main_arg1 : FVec F S16384x128 .f32) (main_arg2 : FVec F S16384x128 .f32) (main_arg3 : FVec F S128x256 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S16384x16384 : Shape := ⟨2, ![16384, 16384]⟩
abbrev S16384x128 : Shape := ⟨2, ![16384, 128]⟩
abbrev S128x256 : Shape := ⟨2, ![128, 256]⟩
abbrev S128x128 : Shape := ⟨2, ![128, 128]⟩
abbrev S1024x2048 : Shape := ⟨2, ![1024, 2048]⟩
abbrev S1024x128 : Shape := ⟨2, ![1024, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 9
  | .vmem => 11
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x128, .f32⟩
  | .hbm, ⟨3, _⟩ => ⟨S128x256, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S16384x128, .f32⟩
  | .local _ .vmem, ⟨3, _⟩ => ⟨S1024x128, .f32⟩
  | .local _ .vmem, ⟨4, _⟩ => ⟨S1024x128, .f32⟩
  | .local _ .vmem, ⟨5, _⟩ => ⟨S128x128, .f32⟩
  | .local _ .vmem, ⟨6, _⟩ => ⟨S128x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
@[reducible] def k0_t1_loop : Scf.Loop 32 :=
  let c0_i32_1 : BitVec 32 := 0#32
  let c4_i32 : BitVec 32 := 4#32
  let v8 : BitVec 32 := Scalar.addi c0_i32_1 c4_i32
  let c1_i32 : BitVec 32 := 1#32
  ⟨c0_i32_1, v8, c1_i32⟩
def k0_mult2 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v12 : BitVec 32 := Scalar.muli arg10 c256_i32
  v12
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v12 : BitVec 32 := Scalar.muli arg10 c256_i32
  let v13 : BitVec 32 := v12
  let v14 : Index := Scalar.indexCast v13
  let c0_4 : Index := 0#32
  ![v14.toNat, 0]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c256_i32 : BitVec 32 := 256#32
  let v12 : BitVec 32 := Scalar.muli arg10 c256_i32
  let v13 : BitVec 32 := v12
  let v18 : Index := Scalar.indexCast v13
  let c0_5 : Index := 0#32
  ![v18.toNat, 0]
def k0_cond2 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  bitsLt_bf16_f32 : FTy.bits .bf16 < FTy.bits .f32
  h_S256x2048 : 0 < S256x2048.numel
  reduces_S256x2048_S256 : S256x2048.Reduces [1] S256
  shapeCasts_S256_S256x1 : S256.ShapeCasts S256x1
  h_S256x128 : 0 < S256x128.numel
  shapeCasts_S256x1_S256x1 : S256x1.ShapeCasts S256x1
  broadcasts_S256x1_S256x128 : S256x1.Broadcasts S256x128
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S256x2048_S2048x128_S256x128_1_0_0_1_n_n_wf : DotDims.WF S256x2048 S2048x128 S256x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  k0_t1_ok : k0_t1_loop.OK
  k0_mult2_dvd : ∀ k0_t1 : Fin k0_t1_loop.trips, 256 ∣ (k0_mult2 k0_t1).toNat
  k0_off2_inb : ∀ k0_t1 : Fin k0_t1_loop.trips, ∀ a, (k0_off2 k0_t1) a + S256x2048.size a ≤ S1024x2048.size a
  k0_off3_inb : ∀ k0_t1 : Fin k0_t1_loop.trips, ∀ a, (k0_off3 k0_t1) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)

variable [Facts₀]

def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x128 : Shape := ⟨2, ![16384, 128]⟩
abbrev S128x256 : Shape := ⟨2, ![128, 256]⟩
abbrev S_ : Shape := ⟨0, ![]⟩
abbrev S16384 : Shape := ⟨1, ![16384]⟩
abbrev S16384x1 : Shape := ⟨2, ![16384, 1]⟩
abbrev S16384x256 : Shape := ⟨2, ![16384, 256]⟩
abbrev S256x128 : Shape := ⟨2, ![256, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S16384x128, .f32⟩
  | .hbm, ⟨3, _⟩ => ⟨S128x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x256, .f32⟩
  | .hbm, ⟨14, _⟩ => ⟨S256x128, .f32⟩
  | .hbm, ⟨15, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S16384x16384_S16384_d1 : S16384x16384.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  transposes_S128x256_S256x128_1_0 : S128x256.Transposes [1, 0] S256x128
  dot_S16384x16384_S16384x128_S16384x128_1_0_0_1_n_n_wf : DotDims.WF S16384x16384 S16384x128 S16384x128 [1] [0] [0] [1] [] []
  dot_S16384x256_S256x128_S16384x128_1_0_0_1_n_n_wf : DotDims.WF S16384x256 S256x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LoopPieces.lean ====
/-
  What the body's counted loop leaves in the two accumulators it carries.

  The loop makes four trips over a block of 1024 rows. Trip `k` reads the 256 adjacency rows `[256k, 256k + 256)` of the
  block and the same 256 rows of each accumulator, and writes those rows of each accumulator back: into the first
  accumulator what it held plus the rows' sums (the payload `k0_pay3`), into the second what it held plus the product
  of the rows with the neighbour tile (the payload `k0_pay4`). The trips' rows are disjoint, so after `k` trips
    • a row at or beyond `256k` still holds what the loop found there, and
    • row `256j + p` with `j < k` holds trip `j`'s payload at `p`, taken of the adjacency rows of chunk `j` and of what the
      loop FOUND in the accumulator's rows of chunk `j` (no earlier trip wrote them).
  Both by induction on the number of trips, reading the list of stores newest first. Stated for any float instance.
-/
import proofs.«171442_j19885698580662_2_alg».proof.Proof.Gen.KernelIdeal.Loops
import Idealize.ShloMosaic.Lib.WritesUnit
import Idealize.ShloMosaic.Lib.Pipeline.FrameBody
import Idealize.ShloMosaic.Lib.ValueIdx

noncomputable section

namespace Cert.KernelIdeal.LoopValue

open Idealize.ShloMosaic Idealize.ShloMosaic.TcCoe Idealize.ShloMosaic.ValueIdx Idealize.SL.Sem
open Cert.KernelIdeal Cert.KernelIdeal.Gen

variable {F : FTy → Type} [FloatOps F]
variable (𝒱 : Variants) (c : Dev nD) (bd : Option 𝒱.V) (i : grid0.Coords)
  (arg2 : Memref sig .tc .vmem S1024x2048 .f32) (harg2 : arg2.IsWhole) (arg3 : Memref sig .tc .vmem S16384x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (v6 : Vec F S2048x128 .f32)
  (X : BufTy.Contents (Elt F) arg2.view.ty) (G8 : BufTy.Contents (Elt F) arg8.view.ty) (G9 : BufTy.Contents (Elt F) arg9.view.ty)

/-- The loop makes four trips. -/
theorem trips_eq : k0_t1_loop.trips = 4 := by decide

/-- The 256 adjacency rows trip `k` reads. -/
abbrev adjRows (k : Fin k0_t1_loop.trips) : Vec F S256x2048 .f32 :=
  View.readAt (Elt F) arg2.view (Rect.unit (s := S1024x2048) (k0_off2 k) S256x2048.size (k0_off2_inb k)).toLoadRect X

/-- The 256 rows of the first accumulator trip `k` reads and writes, of contents `f`. -/
abbrev acc8Rows (k : Fin k0_t1_loop.trips) (f : BufTy.Contents (Elt F) arg8.view.ty) : Vec F S256x128 .f32 :=
  View.readAt (Elt F) arg8.view (Rect.unit (s := S1024x128) (k0_off3 k) S256x128.size (k0_off3_inb k)).toLoadRect f

/-- The 256 rows of the second accumulator trip `k` reads and writes, of contents `f`. -/
abbrev acc9Rows (k : Fin k0_t1_loop.trips) (f : BufTy.Contents (Elt F) arg9.view.ty) : Vec F S256x128 .f32 :=
  View.readAt (Elt F) arg9.view (Rect.unit (s := S1024x128) (k0_off3 k) S256x128.size (k0_off3_inb k)).toLoadRect f

/-- One trip's stores: one piece per accumulator, its 256 rows, the payload of the rows the trip read. -/
theorem tripL_eq (k : Fin k0_t1_loop.trips) (f8 : BufTy.Contents (Elt F) arg8.view.ty) (f9 : BufTy.Contents (Elt F) arg9.view.ty) :
    tripL_k0_t1 (F := F) 𝒱 c bd i arg2 harg2 arg3 harg3 arg4 harg4 arg5 harg5 arg6 harg6 arg7 harg7 arg8 harg8 arg9 harg9 v6 X k f8 f9
      = ([⟨Rect.unit (s := S1024x128) (k0_off3 k) S256x128.size (k0_off3_inb k), k0_pay3 (adjRows arg2 X k) (acc8Rows arg8 k f8)⟩],
         [⟨Rect.unit (s := S1024x128) (k0_off3 k) S256x128.size (k0_off3_inb k), k0_pay4 v6 (adjRows arg2 X k) (acc9Rows arg9 k f9)⟩]) := by
  unfold tripL_k0_t1 trip_k0_t1
  rfl

/-- The stores of the first `k + 1` trips: trip `k`'s two pieces in front of the first `k` trips'. -/
theorem pb_succ (k : ℕ) (hk : k < k0_t1_loop.trips) :
    pb_k0_t1 (F := F) 𝒱 c bd i arg2 harg2 arg3 harg3 arg4 harg4 arg5 harg5 arg6 harg6 arg7 harg7 arg8 harg8 arg9 harg9 v6 X G8 G9 (k + 1)
      = (⟨Rect.unit (s := S1024x128) (k0_off3 ⟨k, hk⟩) S256x128.size (k0_off3_inb ⟨k, hk⟩),
            k0_pay3 (adjRows arg2 X ⟨k, hk⟩) (acc8Rows arg8 ⟨k, hk⟩ (arg8.view.writes (Elt F) G8 (pb_k0_t1 (F := F) 𝒱 c bd i arg2 harg2 arg3 harg3 arg4 harg4 arg5 harg5 arg6 harg6 arg7 harg7 arg8 harg8 arg9 harg9 v6 X G8 G9 k).1))⟩ :: (pb_k0_t1 (F := F) 𝒱 c bd i arg2 harg2 arg3 harg3 arg4 harg4 arg5 harg5 arg6 harg6 arg7 harg7 arg8 harg8 arg9 harg9 v6 X G8 G9 k).1,
         ⟨Rect.unit (s := S1024x128) (k0_off3 ⟨k, hk⟩) S256x128.size (k0_off3_inb ⟨k, hk⟩),
            k0_pay4 v6 (adjRows arg2 X ⟨k, hk⟩) (acc9Rows arg9 ⟨k, hk⟩ (arg9.view.writes (Elt F) G9 (pb_k0_t1 (F := F) 𝒱 c bd i arg2 harg2 arg3 harg3 arg4 harg4 arg5 harg5 arg6 harg6 arg7 harg7 arg8 harg8 arg9 harg9 v6 X G8 G9 k).2))⟩ :: (pb_k0_t1 (F := F) 𝒱 c bd i arg2 harg2 arg3 harg3 arg4 harg4 arg5 harg5 arg6 harg6 arg7 harg7 arg8 harg8 arg9 harg9 v6 X G8 G9 k).2) := by
  rw [pb_k0_t1_succ (F := F) 𝒱 c bd i arg2 harg2 arg3 harg3 arg4 harg4 arg5 harg5 arg6 harg6 arg7 harg7 arg8 harg8 arg9 harg9 v6 X G8 G9 ⟨k, hk⟩, tripL_eq]
  rfl

/-! ## The first accumulator -/

/-- A row no trip has reached yet holds what the loop found there. -/
theorem read8_of_le : ∀ (k : ℕ) (hk : k ≤ k0_t1_loop.trips) (y : S1024x128.Idx) (hy : 256 * k ≤ (y 0).val),
    arg8.view.read (Elt F) (arg8.view.writes (Elt F) G8 (pb_k0_t1 (F := F) 𝒱 c bd i arg2 harg2 arg3 harg3 arg4 harg4 arg5 harg5 arg6 harg6 arg7 harg7 arg8 harg8 arg9 harg9 v6 X G8 G9 k).1) y = arg8.view.read (Elt F) G8 y
  | 0, _, y, _ => rfl
  | k + 1, hk, y, hy => by
    rw [pb_succ 𝒱 c bd i arg2 harg2 arg3 harg3 arg4 harg4 arg5 harg5 arg6 harg6 arg7 harg7 arg8 harg8 arg9 harg9 v6 X G8 G9 k hk]
    refine (View.read_writes_cons_rows_of_not_mem arg8.view G8 (k0_off3_inb ⟨k, hk⟩) _ _ y
      (k0_off3_eq ⟨k, hk⟩) (W := 256) rfl (Or.inr (by dsimp only; omega))).trans ?_
    exact read8_of_le k (Nat.le_of_lt hk) y (by omega)

/-- Trip `k` reads its rows of the first accumulator as the loop found them. -/
theorem acc8Rows_writes (k : ℕ) (hk : k < k0_t1_loop.trips) :
    acc8Rows arg8 ⟨k, hk⟩ (arg8.view.writes (Elt F) G8 (pb_k0_t1 (F := F) 𝒱 c bd i arg2 harg2 arg3 harg3 arg4 harg4 arg5 harg5 arg6 harg6 arg7 harg7 arg8 harg8 arg9 harg9 v6 X G8 G9 k).1) = acc8Rows arg8 ⟨k, hk⟩ G8 := by
  funext x
  show arg8.view.read (Elt F) (arg8.view.writes (Elt F) G8 (pb_k0_t1 (F := F) 𝒱 c bd i arg2 harg2 arg3 harg3 arg4 harg4 arg5 harg5 arg6 harg6 arg7 harg7 arg8 harg8 arg9 harg9 v6 X G8 G9 k).1) ((Rect.unit (s := S1024x128) (k0_off3 ⟨k, hk⟩) S256x128.size (k0_off3_inb ⟨k, hk⟩)).idx x) = _
  refine read8_of_le 𝒱 c bd i arg2 harg2 arg3 harg3 arg4 harg4 arg5 harg5 arg6 harg6 arg7 harg7 arg8 harg8 arg9 harg9 v6 X G8 G9 k (Nat.le_of_lt hk) _ ?_
  show 256 * k ≤ k0_off3 ⟨k, hk⟩ 0 + 1 * (x 0).val
  rw [k0_off3_eq ⟨k, hk⟩]
  show 256 * k ≤ 256 * k + 1 * (x 0).val
  omega

/-- Row `256 j + p` of a chunk `j` already done holds trip `j`'s payload at `p`. -/
theorem read8_of_lt : ∀ (k : ℕ) (hk : k ≤ k0_t1_loop.trips) (j : Fin k0_t1_loop.trips) (hj : j.val < k) (p : Fin 256) (q : Fin 128)
    (y : S1024x128.Idx) (hy0 : (y 0).val = 256 * j.val + p.val) (hy1 : (y 1).val = q.val),
    arg8.view.read (Elt F) (arg8.view.writes (Elt F) G8 (pb_k0_t1 (F := F) 𝒱 c bd i arg2 harg2 arg3 harg3 arg4 harg4 arg5 harg5 arg6 harg6 arg7 harg7 arg8 harg8 arg9 harg9 v6 X G8 G9 k).1) y
      = k0_pay3 (adjRows arg2 X j) (acc8Rows arg8 j G8) (ix2 p q)
  | 0, _, j, hj, _, _, _, _, _ => absurd hj (Nat.not_lt_zero _)
  | k + 1, hk, j, hj, p, q, y, hy0, hy1 => by
    rw [pb_succ 𝒱 c bd i arg2 harg2 arg3 harg3 arg4 harg4 arg5 harg5 arg6 harg6 arg7 harg7 arg8 harg8 arg9 harg9 v6 X G8 G9 k hk]
    by_cases hjk : j.val = k
    · obtain rfl : j = ⟨k, hk⟩ := Fin.ext hjk
      refine (View.read_writes_cons_rows_of_mem arg8.view G8 (k0_off3_inb ⟨k, hk⟩) _ _ y (ix2 p q)
        (k0_off3_eq ⟨k, hk⟩) hy0 hy1).trans ?_
      rw [acc8Rows_writes 𝒱 c bd i arg2 harg2 arg3 harg3 arg4 harg4 arg5 harg5 arg6 harg6 arg7 harg7 arg8 harg8 arg9 harg9 v6 X G8 G9 k hk]
    · refine (View.read_writes_cons_rows_of_not_mem arg8.view G8 (k0_off3_inb ⟨k, hk⟩) _ _ y
        (k0_off3_eq ⟨k, hk⟩) (W := 256) rfl (Or.inl (by dsimp only; have := p.isLt; omega))).trans ?_
      exact read8_of_lt k (Nat.le_of_lt hk) j (by omega) p q y hy0 hy1

/-! ## The second accumulator -/

/-- A row no trip has reached yet holds what the loop found there. -/
theorem read9_of_le : ∀ (k : ℕ) (hk : k ≤ k0_t1_loop.trips) (y : S1024x128.Idx) (hy : 256 * k ≤ (y 0).val),
    arg9.view.read (Elt F) (arg9.view.writes (Elt F) G9 (pb_k0_t1 (F := F) 𝒱 c bd i arg2 harg2 arg3 harg3 arg4 harg4 arg5 harg5 arg6 harg6 arg7 harg7 arg8 harg8 arg9 harg9 v6 X G8 G9 k).2) y = arg9.view.read (Elt F) G9 y
  | 0, _, y, _ => rfl
  | k + 1, hk, y, hy => by
    rw [pb_succ 𝒱 c bd i arg2 harg2 arg3 harg3 arg4 harg4 arg5 harg5 arg6 harg6 arg7 harg7 arg8 harg8 arg9 harg9 v6 X G8 G9 k hk]
    refine (View.read_writes_cons_rows_of_not_mem arg9.view G9 (k0_off3_inb ⟨k, hk⟩) _ _ y
      (k0_off3_eq ⟨k, hk⟩) (W := 256) rfl (Or.inr (by dsimp only; omega))).trans ?_
    exact read9_of_le k (Nat.le_of_lt hk) y (by omega)

/-- Trip `k` reads its rows of the second accumulator as the loop found them. -/
theorem acc9Rows_writes (k : ℕ) (hk : k < k0_t1_loop.trips) :
    acc9Rows arg9 ⟨k, hk⟩ (arg9.view.writes (Elt F) G9 (pb_k0_t1 (F := F) 𝒱 c bd i arg2 harg2 arg3 harg3 arg4 harg4 arg5 harg5 arg6 harg6 arg7 harg7 arg8 harg8 arg9 harg9 v6 X G8 G9 k).2) = acc9Rows arg9 ⟨k, hk⟩ G9 := by
  funext x
  show arg9.view.read (Elt F) (arg9.view.writes (Elt F) G9 (pb_k0_t1 (F := F) 𝒱 c bd i arg2 harg2 arg3 harg3 arg4 harg4 arg5 harg5 arg6 harg6 arg7 harg7 arg8 harg8 arg9 harg9 v6 X G8 G9 k).2) ((Rect.unit (s := S1024x128) (k0_off3 ⟨k, hk⟩) S256x128.size (k0_off3_inb ⟨k, hk⟩)).idx x) = _
  refine read9_of_le 𝒱 c bd i arg2 harg2 arg3 harg3 arg4 harg4 arg5 harg5 arg6 harg6 arg7 harg7 arg8 harg8 arg9 harg9 v6 X G8 G9 k (Nat.le_of_lt hk) _ ?_
  show 256 * k ≤ k0_off3 ⟨k, hk⟩ 0 + 1 * (x 0).val
  rw [k0_off3_eq ⟨k, hk⟩]
  show 256 * k ≤ 256 * k + 1 * (x 0).val
  omega

/-- Row `256 j + p` of a chunk `j` already done holds trip `j`'s payload at `p`. -/
theorem read9_of_lt : ∀ (k : ℕ) (hk : k ≤ k0_t1_loop.trips) (j : Fin k0_t1_loop.trips) (hj : j.val < k) (p : Fin 256) (q : Fin 128)
    (y : S1024x128.Idx) (hy0 : (y 0).val = 256 * j.val + p.val) (hy1 : (y 1).val = q.val),
    arg9.view.read (Elt F) (arg9.view.writes (Elt F) G9 (pb_k0_t1 (F := F) 𝒱 c bd i arg2 harg2 arg3 harg3 arg4 harg4 arg5 harg5 arg6 harg6 arg7 harg7 arg8 harg8 arg9 harg9 v6 X G8 G9 k).2) y
      = k0_pay4 v6 (adjRows arg2 X j) (acc9Rows arg9 j G9) (ix2 p q)
  | 0, _, j, hj, _, _, _, _, _ => absurd hj (Nat.not_lt_zero _)
  | k + 1, hk, j, hj, p, q, y, hy0, hy1 => by
    rw [pb_succ 𝒱 c bd i arg2 harg2 arg3 harg3 arg4 harg4 arg5 harg5 arg6 harg6 arg7 harg7 arg8 harg8 arg9 harg9 v6 X G8 G9 k hk]
    by_cases hjk : j.val = k
    · obtain rfl : j = ⟨k, hk⟩ := Fin.ext hjk
      refine (View.read_writes_cons_rows_of_mem arg9.view G9 (k0_off3_inb ⟨k, hk⟩) _ _ y (ix2 p q)
        (k0_off3_eq ⟨k, hk⟩) hy0 hy1).trans ?_
      rw [acc9Rows_writes 𝒱 c bd i arg2 harg2 arg3 harg3 arg4 harg4 arg5 harg5 arg6 harg6 arg7 harg7 arg8 harg8 arg9 harg9 v6 X G8 G9 k hk]
    · refine (View.read_writes_cons_rows_of_not_mem arg9.view G9 (k0_off3_inb ⟨k, hk⟩) _ _ y
        (k0_off3_eq ⟨k, hk⟩) (W := 256) rfl (Or.inl (by dsimp only; have := p.isLt; omega))).trans ?_
      exact read9_of_lt k (Nat.le_of_lt hk) j (by omega) p q y hy0 hy1

/-! ## After the last trip: every row -/

/-- The chunk of 256 rows that holds row `y 0`, and the row's place in it. -/
def chunkOf (y : S1024x128.Idx) : Fin k0_t1_loop.trips :=
  ⟨(y 0).val / 256, by have h : (y 0).val < 1024 := (y 0).isLt; rw [trips_eq]; omega⟩
def rowIn (y : S1024x128.Idx) : Fin 256 := ⟨(y 0).val % 256, Nat.mod_lt _ (by decide)⟩

/-- After the four trips every row of the first accumulator holds its chunk's payload. -/
theorem read8_all (y : S1024x128.Idx) :
    arg8.view.read (Elt F) (arg8.view.writes (Elt F) G8 (pb_k0_t1 (F := F) 𝒱 c bd i arg2 harg2 arg3 harg3 arg4 harg4 arg5 harg5 arg6 harg6 arg7 harg7 arg8 harg8 arg9 harg9 v6 X G8 G9 k0_t1_loop.trips).1) y
      = k0_pay3 (adjRows arg2 X (chunkOf y)) (acc8Rows arg8 (chunkOf y) G8) (ix2 (rowIn y) (y 1)) :=
  read8_of_lt 𝒱 c bd i arg2 harg2 arg3 harg3 arg4 harg4 arg5 harg5 arg6 harg6 arg7 harg7 arg8 harg8 arg9 harg9 v6 X G8 G9 k0_t1_loop.trips (Nat.le_refl _) (chunkOf y) (chunkOf y).isLt (rowIn y) (y 1) y
    (by show (y 0).val = 256 * ((y 0).val / 256) + (y 0).val % 256; omega) rfl

/-- After the four trips every row of the second accumulator holds its chunk's payload. -/
theorem read9_all (y : S1024x128.Idx) :
    arg9.view.read (Elt F) (arg9.view.writes (Elt F) G9 (pb_k0_t1 (F := F) 𝒱 c bd i arg2 harg2 arg3 harg3 arg4 harg4 arg5 harg5 arg6 harg6 arg7 harg7 arg8 harg8 arg9 harg9 v6 X G8 G9 k0_t1_loop.trips).2) y
      = k0_pay4 v6 (adjRows arg2 X (chunkOf y)) (acc9Rows arg9 (chunkOf y) G9) (ix2 (rowIn y) (y 1)) :=
  read9_of_lt 𝒱 c bd i arg2 harg2 arg3 harg3 arg4 harg4 arg5 harg5 arg6 harg6 arg7 harg7 arg8 harg8 arg9 harg9 v6 X G8 G9 k0_t1_loop.trips (Nat.le_refl _) (chunkOf y) (chunkOf y).isLt (rowIn y) (y 1) y
    (by show (y 0).val = 256 * ((y 0).val / 256) + (y 0).val % 256; omega) rfl

end Cert.KernelIdeal.LoopValue

end
-- ==== Proof.CaseValues.lean ====
/-
  What each control case of the body leaves, as functions of the blocks it reads.

  The body's counted loop adds, into each of the two accumulators, the contribution of one adjacency block `x0` of
  1024 rows by 2048 columns: `loop8 x0 g` is the first accumulator after the loop when it held `g` before (row by
  row: `g` plus the row's sum over the block's columns), `loop9 nb x0 g` the second (`g` plus the block times the
  neighbour tile `nb`). The three cases of the body differ only in what the accumulators hold when the loop starts
  and in what follows it:
    • the first column tile of a row stripe stores zeros into both accumulators first (`k0_pay1`, `k0_pay2`);
    • a middle tile starts from what the tile before left;
    • the last tile does the same and then stores the output block, `k0_pay5` of the two accumulators, the
      feature block and the two weight halves.
  Stated for any float instance; the arithmetic of the payloads is read elsewhere.
-/
import proofs.«171442_j19885698580662_2_alg».proof.Proof.Gen.KernelIdeal.Frame
import proofs.«171442_j19885698580662_2_alg».proof.Proof.LoopPieces
import Idealize.ShloMosaic.Lib.Pipeline.Value
import Idealize.ShloMosaic.Lib.Tactic

noncomputable section

namespace Cert.KernelIdeal.CaseValue

open Idealize.ShloMosaic Idealize.ShloMosaic.TcCoe Idealize.ShloMosaic.Tactic Idealize.ShloMosaic.ValueIdx Idealize.SL.Sem
open Cert.KernelIdeal Cert.KernelIdeal.Gen Cert.KernelIdeal.LoopValue

variable {F : FTy → Type} [FloatOps F]

theorem hz : (![0, 0] : Fin 2 → Nat) = fun _ => 0 := funext fun a => by fin_cases a <;> rfl

/-- Rows `[256 j, 256 j + 256)` of an adjacency block, and of an accumulator. -/
abbrev adjChunk (x0 : Vec F S1024x2048 .f32) (j : Fin k0_t1_loop.trips) : Vec F S256x2048 .f32 :=
  View.ld x0 (Rect.unit (s := S1024x2048) (k0_off2 j) S256x2048.size (k0_off2_inb j))
abbrev accChunk (g : Vec F S1024x128 .f32) (j : Fin k0_t1_loop.trips) : Vec F S256x128 .f32 :=
  View.ld g (Rect.unit (s := S1024x128) (k0_off3 j) S256x128.size (k0_off3_inb j))

/-- The 2048 rows of the neighbour features that go with the point's column tile. -/
abbrev nbTile (i : grid0.Coords) (x1 : Vec F S16384x128 .f32) : Vec F S2048x128 .f32 :=
  View.ld x1 (Rect.unit (s := S16384x128) (k0_off1 i) S2048x128.size (k0_off1_inb i))

/-- The first accumulator after the loop over block `x0`, from contents `g`. -/
def loop8 (x0 : Vec F S1024x2048 .f32) (g : Vec F S1024x128 .f32) : Vec F S1024x128 .f32 :=
  fun y => k0_pay3 (adjChunk x0 (chunkOf y)) (accChunk g (chunkOf y)) (ix2 (rowIn y) (y 1))

/-- The second accumulator after the loop over block `x0` against the neighbour tile `nb`, from contents `g`. -/
def loop9 (nb : Vec F S2048x128 .f32) (x0 : Vec F S1024x2048 .f32) (g : Vec F S1024x128 .f32) : Vec F S1024x128 .f32 :=
  fun y => k0_pay4 nb (adjChunk x0 (chunkOf y)) (accChunk g (chunkOf y)) (ix2 (rowIn y) (y 1))

section Loop

variable (𝒱 : Variants) (c : Dev nD) (bd : Option 𝒱.V) (i : grid0.Coords)
  (arg2 : Memref sig .tc .vmem S1024x2048 .f32) (harg2 : arg2.IsWhole) (arg3 : Memref sig .tc .vmem S16384x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (v6 : Vec F S2048x128 .f32)
  (X : BufTy.Contents (Elt F) arg2.view.ty) (G8 : BufTy.Contents (Elt F) arg8.view.ty) (G9 : BufTy.Contents (Elt F) arg9.view.ty)

/-- The loop's stores read back through the first accumulator's own view: `loop8` of what the views read before. -/
theorem read8_eq (x0 : Vec F S1024x2048 .f32) (g : Vec F S1024x128 .f32)
    (hX : arg2.view.read (Elt F) X = x0) (hG : arg8.view.read (Elt F) G8 = g) :
    arg8.view.read (Elt F) (arg8.view.writes (Elt F) G8 (pb_k0_t1 (F := F) 𝒱 c bd i arg2 harg2 arg3 harg3 arg4 harg4 arg5 harg5 arg6 harg6 arg7 harg7 arg8 harg8 arg9 harg9 v6 X G8 G9 k0_t1_loop.trips).1) = loop8 x0 g := by
  funext y
  rw [read8_all 𝒱 c bd i arg2 harg2 arg3 harg3 arg4 harg4 arg5 harg5 arg6 harg6 arg7 harg7 arg8 harg8 arg9 harg9 v6 X G8 G9 y]
  subst hX hG
  rfl

/-- The same for the second accumulator: `loop9`. -/
theorem read9_eq (nb : Vec F S2048x128 .f32) (x0 : Vec F S1024x2048 .f32) (g : Vec F S1024x128 .f32)
    (hV : v6 = nb) (hX : arg2.view.read (Elt F) X = x0) (hG : arg9.view.read (Elt F) G9 = g) :
    arg9.view.read (Elt F) (arg9.view.writes (Elt F) G9 (pb_k0_t1 (F := F) 𝒱 c bd i arg2 harg2 arg3 harg3 arg4 harg4 arg5 harg5 arg6 harg6 arg7 harg7 arg8 harg8 arg9 harg9 v6 X G8 G9 k0_t1_loop.trips).2) = loop9 nb x0 g := by
  funext y
  rw [read9_all 𝒱 c bd i arg2 harg2 arg3 harg3 arg4 harg4 arg5 harg5 arg6 harg6 arg7 harg7 arg8 harg8 arg9 harg9 v6 X G8 G9 y]
  subst hV hX hG
  rfl

end Loop

/-- One store of the whole buffer leaves its payload, whatever was there (the zero offsets however they are spelt). -/
theorem read_fill {sig' : RefSig} {κ : Kind} {sp : Space} (v : View sig' κ sp S1024x128 .f32) (f : v.ty.Contents (Elt F))
    {off : Fin S1024x128.rank → Nat} (h : off = fun _ => 0) (inb : ∀ a, off a + S1024x128.size a ≤ S1024x128.size a)
    (w : Vec F S1024x128 .f32) :
    v.read (Elt F) (v.writes (Elt F) f [(⟨Rect.unit off S1024x128.size inb, w⟩ : View.Piece (Elt F) S1024x128 .f32)]) = w := by
  subst h
  funext y
  have e := View.read_writes_cons_emb v f (Rect.whole S1024x128) w [] y
  rw [Rect.emb_whole_apply] at e
  exact e

variable (c : Dev nD) (i : grid0.Coords)
  (arg2 : Memref sig .tc .vmem S1024x2048 .f32) (harg2 : arg2.IsWhole) (arg3 : Memref sig .tc .vmem S16384x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (x0 : Vec F S1024x2048 .f32) (x1 : Vec F S16384x128 .f32) (x2 : Vec F S1024x128 .f32) (x3 : Vec F S128x128 .f32) (x4 : Vec F S128x128 .f32)

/-! ## A middle tile -/

theorem sB0 (hc0 : ¬cond0_0 i) (hc1 : ¬cond0_1 i) (xs0 xs1 : Vec F S1024x128 .f32) :
    sout0_B_0 c i arg2 harg2 arg3 harg3 arg4 harg4 arg5 harg5 arg6 harg6 arg7 harg7 arg8 harg8 arg9 harg9 hc0 hc1 x0 x1 x2 x3 x4 xs0 xs1 = loop8 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1),
    ← View.read_writes_eq_canon arg8.view (harg8.unread xs0) _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  exact read8_eq _ c _ i arg2 harg2 arg3 harg3 arg4 harg4 arg5 harg5 arg6 harg6 arg7 harg7 arg8 harg8 arg9 harg9 _ _ _ _ x0 xs0 (harg2.read_unread x0) (harg8.read_unread xs0)

theorem sB1 (hc0 : ¬cond0_0 i) (hc1 : ¬cond0_1 i) (xs0 xs1 : Vec F S1024x128 .f32) :
    sout0_B_1 c i arg2 harg2 arg3 harg3 arg4 harg4 arg5 harg5 arg6 harg6 arg7 harg7 arg8 harg8 arg9 harg9 hc0 hc1 x0 x1 x2 x3 x4 xs0 xs1 = loop9 (nbTile i x1) x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1),
    ← View.read_writes_eq_canon arg9.view (harg9.unread xs1) _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  exact read9_eq _ c _ i arg2 harg2 arg3 harg3 arg4 harg4 arg5 harg5 arg6 harg6 arg7 harg7 arg8 harg8 arg9 harg9 _ _ _ _ (nbTile i x1) x0 xs1
    (by rw [View.readAt_eq_ld, harg3.read_unread]) (harg2.read_unread x0) (harg9.read_unread xs1)

/-! ## The last tile of a row stripe -/

theorem sC0 (hc0 : ¬cond0_0 i) (hc1 : cond0_1 i) (xs0 xs1 : Vec F S1024x128 .f32) :
    sout0_C_0 c i arg2 harg2 arg3 harg3 arg4 harg4 arg5 harg5 arg6 harg6 arg7 harg7 arg8 harg8 arg9 harg9 hc0 hc1 x0 x1 x2 x3 x4 xs0 xs1 = loop8 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1),
    ← View.read_writes_eq_canon arg8.view (harg8.unread xs0) _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  exact read8_eq _ c _ i arg2 harg2 arg3 harg3 arg4 harg4 arg5 harg5 arg6 harg6 arg7 harg7 arg8 harg8 arg9 harg9 _ _ _ _ x0 xs0 (harg2.read_unread x0) (harg8.read_unread xs0)

theorem sC1 (hc0 : ¬cond0_0 i) (hc1 : cond0_1 i) (xs0 xs1 : Vec F S1024x128 .f32) :
    sout0_C_1 c i arg2 harg2 arg3 harg3 arg4 harg4 arg5 harg5 arg6 harg6 arg7 harg7 arg8 harg8 arg9 harg9 hc0 hc1 x0 x1 x2 x3 x4 xs0 xs1 = loop9 (nbTile i x1) x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1),
    ← View.read_writes_eq_canon arg9.view (harg9.unread xs1) _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  exact read9_eq _ c _ i arg2 harg2 arg3 harg3 arg4 harg4 arg5 harg5 arg6 harg6 arg7 harg7 arg8 harg8 arg9 harg9 _ _ _ _ (nbTile i x1) x0 xs1
    (by rw [View.readAt_eq_ld, harg3.read_unread] <;> rfl) (harg2.read_unread x0) (harg9.read_unread xs1)

/-- The output block the last tile stores: `k0_pay5` of the two accumulators after its loop, the feature block and the
    two weight halves. -/
theorem oC5 (hc0 : ¬cond0_0 i) (hc1 : cond0_1 i) (xs0 xs1 : Vec F S1024x128 .f32) :
    out0_C_5 c i arg2 harg2 arg3 harg3 arg4 harg4 arg5 harg5 arg6 harg6 arg7 harg7 arg8 harg8 arg9 harg9 hc0 hc1 x0 x1 x2 x3 x4 xs0 xs1
      = k0_pay5 (loop8 x0 xs0) (loop9 (nbTile i x1) x0 xs1) x2 x3 x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread,
    View.ld_unit_zero (S := S1024x128) hz, View.ld_unit_zero (S := S128x128) hz]
  refine congrArg₂ (fun a b => k0_pay5 a b x2 x3 x4) ?_ ?_
  · exact read8_eq _ c _ i arg2 harg2 arg3 harg3 arg4 harg4 arg5 harg5 arg6 harg6 arg7 harg7 arg8 harg8 arg9 harg9 _ _ _ _ x0 xs0 (harg2.read_unread x0) (harg8.read_unread xs0)
  · exact read9_eq _ c _ i arg2 harg2 arg3 harg3 arg4 harg4 arg5 harg5 arg6 harg6 arg7 harg7 arg8 harg8 arg9 harg9 _ _ _ _ (nbTile i x1) x0 xs1 (by rfl) (harg2.read_unread x0) (harg9.read_unread xs1)

/-! ## The first tile of a row stripe -/

theorem sA0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = loop8 x0 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4),
    ← View.read_writes_eq_canon arg8.view arg8.view.junk _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.writes_append]
  exact read8_eq _ c _ i arg2 harg2 arg3 harg3 arg4 harg4 arg5 harg5 arg6 harg6 arg7 harg7 arg8 harg8 arg9 harg9 _ _ _ _ x0 k0_pay1 (harg2.read_unread x0) (read_fill arg8.view _ hz _ k0_pay1)

theorem sA1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = loop9 (nbTile i x1) x0 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4),
    ← View.read_writes_eq_canon arg9.view arg9.view.junk _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.writes_append]
  exact read9_eq _ c _ i arg2 harg2 arg3 harg3 arg4 harg4 arg5 harg5 arg6 harg6 arg7 harg7 arg8 harg8 arg9 harg9 _ _ _ _ (nbTile i x1) x0 k0_pay2
    (by rw [View.readAt_eq_ld, harg3.read_unread] <;> rfl) (harg2.read_unread x0) (read_fill arg9.view _ hz _ k0_pay2)

end Cert.KernelIdeal.CaseValue

end
-- ==== Proof.SageLayer.lean ====
/-
  The layer both programs compute, as ONE function of the four argument arrays on the extended reals.

  For a node `r` with adjacency row `adj r ·`:
    degree r      = (∑ c, adj r c) + 1
    gathered r d  = ∑ c, adj r c · nb c d                    (the neighbours' features, weighted by the row)
    mean r d      = gathered r d / degree r                  (the exact quotient of the extended reals)
    layer r o     = ∑ d, feat r d · W o d  +  ∑ d, mean r d · W o (128 + d)
  that is, the row `[feat r · , mean r ·]` of length 256 contracted with row `o` of `W`, the contraction written
  as its two halves. Every sum is a finite sum in the commutative monoid of the extended reals, so the order and
  the grouping of its terms do not matter; nothing here needs the entries to be finite.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace SageLayer

/-- An adjacency matrix, a feature matrix and a weight matrix with extended-real entries. -/
abbrev Adj := (⟨2, ![16384, 16384]⟩ : Shape).Idx → EReal
abbrev Feat := (⟨2, ![16384, 128]⟩ : Shape).Idx → EReal
abbrev Wt := (⟨2, ![128, 256]⟩ : Shape).Idx → EReal

/-- The extended real the word of `1.0` denotes (the same word in both programs: it is never evaluated). -/
abbrev one : EReal := Ideal.ofBits .f32 0x3F800000#32

/-- The row sum of the adjacency matrix, plus one. -/
def degree (adj : Adj) (r : Fin 16384) : EReal := (∑ c : Fin 16384, adj (ix2 r c)) + one

/-- The neighbours' features summed with the adjacency row as weights. -/
def gathered (adj : Adj) (nb : Feat) (r : Fin 16384) (d : Fin 128) : EReal :=
  ∑ c : Fin 16384, adj (ix2 r c) * nb (ix2 c d)

/-- The degree-normalised neighbour feature. -/
def mean (adj : Adj) (nb : Feat) (r : Fin 16384) (d : Fin 128) : EReal :=
  Ideal.div (gathered adj nb r d) (degree adj r)

/-- Column `d` of the first half of a row of `W`, and of its second half. -/
def lo (d : Fin 128) : Fin 256 := ⟨d.val, by omega⟩
def hi (d : Fin 128) : Fin 256 := ⟨128 + d.val, by omega⟩

/-- The layer at node `r`, output feature `o`. -/
def layerAt (adj : Adj) (feat nb : Feat) (W : Wt) (r : Fin 16384) (o : Fin 128) : EReal :=
  (∑ d : Fin 128, feat (ix2 r d) * W (ix2 o (lo d))) + (∑ d : Fin 128, mean adj nb r d * W (ix2 o (hi d)))

/-- The layer as an array. -/
def layer (adj : Adj) (feat nb : Feat) (W : Wt) : Feat := fun i => layerAt adj feat nb W (i 0) (i 1)

theorem layer_ix2 (adj : Adj) (feat nb : Feat) (W : Wt) (r : Fin 16384) (o : Fin 128) :
    layer adj feat nb W (ix2 r o) = layerAt adj feat nb W r o := rfl

end SageLayer

end
-- ==== Proof.PayloadsAtIdeal.lean ====
/-
  The kernel's arithmetic between its loads and each store, read at one element on the extended reals.

  Each stored value is a pure function of the vectors loaded before it. Read at row `p` and column `q`:
    * the two initial stores write `0` (the zero word denotes `0`);
    * the degree accumulator's update adds to the old value the sum of row `p` of the adjacency tile over its
      2048 columns: a lane sum, whose result, a vector of 256 entries, is viewed as a column and repeated along
      the 128 lanes, so that column `q` plays no part;
    * the aggregate accumulator's update adds to the old value the product of row `p` of the adjacency tile with
      column `q` of the neighbour tile, a contraction over the 2048 shared positions into a zero accumulator;
    * the final value is the sum of two contractions over 128 positions into zero accumulators: the node's own
      features with the first weight block, and the aggregate divided by the degree plus one with the second.
  Narrowing a value to sixteen bits is the identity on the extended reals, a cast to the same shape is the identity,
  and the word of `1.0` is kept as a word. The contractions are re-indexed from the contraction shape's one-axis
  index to the position itself; no sum is expanded.
-/
import proofs.«171442_j19885698580662_2_alg».proof.Proof.Gen.KernelIdeal.Skeleton
import proofs.«171442_j19885698580662_2_alg».proof.Proof.SageLayer
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx

/-! ## A vector viewed as a column, and a column repeated along the lanes -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The lane sum and the two contractions at an element -/

/-- The sum along the lanes of a `[256, 2048]` vector, at row `p`: the sum of that row's 2048 entries. -/
theorem rowsum_apply (v15 : Vec Ideal S256x2048 .f32) (p : Fin 256) :
    multiReduction (F := Ideal) .add [1] S256 v15 0x00000000#32 reduces_S256x2048_S256 (.inl rfl) rfl (ix1 p)
      = ∑ cc : Fin 2048, v15 (ix2 p cc) := by
  refine (Ideal.multiReduction_add_single v15 0x00000000#32 reduces_S256x2048_S256 (.inl rfl) rfl (ix1 p)).trans ?_
  refine Finset.sum_congr rfl fun cc _ => congrArg v15 (funext fun a => Fin.ext ?_)
  match a with
  | ⟨0, _⟩ => rfl
  | ⟨1, _⟩ => rfl

theorem lhs_A_0 (i : S256x128.Idx) (k : dot_S256x2048_S2048x128_S256x128_1_0_0_1_n_n.contr.Idx) :
    (dot_S256x2048_S2048x128_S256x128_1_0_0_1_n_n.lhsIdx i k 0).val = (i 0).val := by
  unfold DotDims.lhsIdx
  rw [dif_neg (show ¬(0 : Fin S256x2048.rank) ∈ dot_S256x2048_S2048x128_S256x128_1_0_0_1_n_n.lhsBatch by decide),
    dif_pos (show (0 : Fin S256x2048.rank) ∈ dot_S256x2048_S2048x128_S256x128_1_0_0_1_n_n.lhsNonContracting by decide)]
  rfl
theorem rhs_A_1 (i : S256x128.Idx) (k : dot_S256x2048_S2048x128_S256x128_1_0_0_1_n_n.contr.Idx) :
    (dot_S256x2048_S2048x128_S256x128_1_0_0_1_n_n.rhsIdx i k 1).val = (i 1).val := by
  unfold DotDims.rhsIdx
  rw [dif_neg (show ¬(1 : Fin S2048x128.rank) ∈ dot_S256x2048_S2048x128_S256x128_1_0_0_1_n_n.rhsBatch by decide),
    dif_pos (show (1 : Fin S2048x128.rank) ∈ dot_S256x2048_S2048x128_S256x128_1_0_0_1_n_n.rhsNonContracting by decide)]
  rfl

/-- A `[256, 2048] × [2048, 128]` contraction into the zero accumulator, at `(p, q)`: the sum over the 2048
    shared positions of the products. -/
theorem matmul_A_apply (lhs : FVec Ideal S256x2048 .bf16) (rhs : FVec Ideal S2048x128 .bf16) (p : Fin 256) (q : Fin 128) :
    matmul (F := Ideal) dot_S256x2048_S2048x128_S256x128_1_0_0_1_n_n none lhs rhs (constant (F := Ideal) S256x128 .f32 0x00000000#32) (ix2 p q)
      = ∑ cc : Fin 2048, lhs (ix2 p cc) * rhs (ix2 cc q) := by
  refine (Ideal.matmul_constant_zero_apply dot_S256x2048_S2048x128_S256x128_1_0_0_1_n_n none lhs rhs (ix2 p q)).trans ?_
  rw [← Equiv.sum_comp (ValueIdx.contrEquiv1 dot_S256x2048_S2048x128_S256x128_1_0_0_1_n_n 2048 rfl rfl).symm]
  refine Finset.sum_congr rfl fun k _ => ?_
  have hk := ValueIdx.contrEquiv1_symm_val dot_S256x2048_S2048x128_S256x128_1_0_0_1_n_n 2048 rfl rfl k
  have el : dot_S256x2048_S2048x128_S256x128_1_0_0_1_n_n.lhsIdx (ix2 p q) ((ValueIdx.contrEquiv1 dot_S256x2048_S2048x128_S256x128_1_0_0_1_n_n 2048 rfl rfl).symm k) = ix2 p k :=
    funext fun a => Fin.ext (by
      match a with
      | ⟨0, _⟩ => exact lhs_A_0 _ _
      | ⟨1, _⟩ => exact (dot_S256x2048_S2048x128_S256x128_1_0_0_1_n_n.lhsIdx_val_of_single rfl _ _).trans hk)
  have er : dot_S256x2048_S2048x128_S256x128_1_0_0_1_n_n.rhsIdx (ix2 p q) ((ValueIdx.contrEquiv1 dot_S256x2048_S2048x128_S256x128_1_0_0_1_n_n 2048 rfl rfl).symm k) = ix2 k q :=
    funext fun a => Fin.ext (by
      match a with
      | ⟨0, _⟩ => exact (dot_S256x2048_S2048x128_S256x128_1_0_0_1_n_n.rhsIdx_val_of_single rfl _ _).trans hk
      | ⟨1, _⟩ => exact rhs_A_1 _ _)
  rw [el, er]

theorem lhs_B_0 (i : S1024x128.Idx) (k : dot_S1024x128_S128x128_S1024x128_1_0_0_1_n_n.contr.Idx) :
    (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem rhs_B_1 (i : S1024x128.Idx) (k : dot_S1024x128_S128x128_S1024x128_1_0_0_1_n_n.contr.Idx) :
    (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- A `[1024, 128] × [128, 128]` contraction into the zero accumulator, at `(r, o)`: the sum over the 128 shared
    positions of the products. -/
theorem matmul_B_apply (lhs : FVec Ideal S1024x128 .bf16) (rhs : FVec Ideal S128x128 .bf16) (r : Fin 1024) (o : Fin 128) :
    matmul (F := Ideal) dot_S1024x128_S128x128_S1024x128_1_0_0_1_n_n none lhs rhs (constant (F := Ideal) S1024x128 .f32 0x00000000#32) (ix2 r o)
      = ∑ d : Fin 128, lhs (ix2 r d) * rhs (ix2 d o) := by
  refine (Ideal.matmul_constant_zero_apply dot_S1024x128_S128x128_S1024x128_1_0_0_1_n_n none lhs rhs (ix2 r o)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r o) ((ValueIdx.contrEquiv1 dot_S1024x128_S128x128_S1024x128_1_0_0_1_n_n 128 rfl rfl).symm k) = ix2 r k :=
    funext fun a => Fin.ext (by
      match a with
      | ⟨0, _⟩ => exact lhs_B_0 _ _
      | ⟨1, _⟩ => exact (dot_S1024x128_S128x128_S1024x128_1_0_0_1_n_n.lhsIdx_val_of_single rfl _ _).trans hk)
  have er : dot_S1024x128_S128x128_S1024x128_1_0_0_1_n_n.rhsIdx (ix2 r o) ((ValueIdx.contrEquiv1 dot_S1024x128_S128x128_S1024x128_1_0_0_1_n_n 128 rfl rfl).symm k) = ix2 k o :=
    funext fun a => Fin.ext (by
      match a with
      | ⟨0, _⟩ => exact (dot_S1024x128_S128x128_S1024x128_1_0_0_1_n_n.rhsIdx_val_of_single rfl _ _).trans hk
      | ⟨1, _⟩ => exact rhs_B_1 _ _)
  rw [el, er]

/-! ## The five stored values at an element -/

/-- The degree accumulator starts at `0`. -/
theorem pay1_apply (y : S1024x128.Idx) : k0_pay1 (F := Ideal) y = 0 := by
  unfold k0_pay1
  rw [shapeCast_self, broadcast_apply]
  exact Ideal.ofBits_zero_f32

/-- The aggregate accumulator starts at `0`. -/
theorem pay2_apply (y : S1024x128.Idx) : k0_pay2 (F := Ideal) y = 0 := by
  unfold k0_pay2
  rw [shapeCast_self, broadcast_apply]
  exact Ideal.ofBits_zero_f32

/-- The degree accumulator's update at `(p, q)`: the old value plus the sum of row `p` of the adjacency tile. -/
theorem pay3_apply (v15 : Vec Ideal S256x2048 .f32) (v19 : Vec Ideal S256x128 .f32) (p : Fin 256) (q : Fin 128) :
    k0_pay3 (F := Ideal) v15 v19 (ix2 p q) = v19 (ix2 p q) + ∑ cc : Fin 2048, v15 (ix2 p cc) := by
  unfold k0_pay3
  rw [shapeCast_self, addf_apply, broadcastTo_a1_ab_apply, shapeCast_self, shapeCast_a_a1_apply, rowsum_apply]

/-- The aggregate accumulator's update at `(p, q)`: the old value plus row `p` of the adjacency tile times column
    `q` of the neighbour tile. -/
theorem pay4_apply (v6 : Vec Ideal S2048x128 .f32) (v15 : Vec Ideal S256x2048 .f32) (v29 : Vec Ideal S256x128 .f32)
    (p : Fin 256) (q : Fin 128) :
    k0_pay4 (F := Ideal) v6 v15 v29 (ix2 p q) = v29 (ix2 p q) + ∑ cc : Fin 2048, v15 (ix2 p cc) * v6 (ix2 cc q) := by
  unfold k0_pay4
  rw [shapeCast_self, addf_apply, matmul_A_apply]
  rfl

/-- The final value at `(r, o)`: the node's features against the first weight block, plus the aggregate divided by
    the degree plus one against the second. -/
theorem pay5_apply (v12 v15 v17 : Vec Ideal S1024x128 .f32) (v20 v23 : Vec Ideal S128x128 .f32) (r : Fin 1024) (o : Fin 128) :
    k0_pay5 (F := Ideal) v12 v15 v17 v20 v23 (ix2 r o)
      = (∑ d : Fin 128, v17 (ix2 r d) * v20 (ix2 d o))
        + ∑ d : Fin 128, Ideal.div (v15 (ix2 r d)) (v12 (ix2 r d) + SageLayer.one) * v23 (ix2 d o) := by
  unfold k0_pay5
  rw [addf_apply, matmul_B_apply, matmul_B_apply, shapeCast_self, shapeCast_self]
  rfl

end Cert.KernelIdeal.PayValue

end
-- ==== Proof.IdealLoop.lean ====
/-
  The loop's two functions read at an entry, over the extended reals.

  After the loop over an adjacency block `x0` (1024 rows, 2048 columns):
    first accumulator   (r, q) ↦ g (r, q) + ∑ cc, x0 (r, cc)                    — the row's sum over the block's columns
    second accumulator  (r, q) ↦ g (r, q) + ∑ cc, x0 (r, cc) · nb (cc, q)        — the row against the neighbour tile
  whatever the chunk of 256 rows that holds `r`: the chunk's rows are read at offset `256·(r / 256)` and the row sits
  at `r % 256` in it. The zero word the row sum starts from is the real zero.
-/
import proofs.«171442_j19885698580662_2_alg».proof.Proof.CaseValues
import proofs.«171442_j19885698580662_2_alg».proof.Proof.PayloadsAtIdeal

noncomputable section

namespace Cert.KernelIdeal.IdealValue

open Idealize.ShloMosaic Idealize.ShloMosaic.TcCoe Idealize.ShloMosaic.ValueIdx Idealize.SL.Sem
open Cert.KernelIdeal Cert.KernelIdeal.Gen Cert.KernelIdeal.LoopValue Cert.KernelIdeal.CaseValue Cert.KernelIdeal.PayValue

/-- Row `r % 256` of the chunk that holds row `r` of an accumulator is row `r`. -/
theorem accChunk_apply (g : Vec Ideal S1024x128 .f32) (r : Fin 1024) (q q' : Fin 128) :
    accChunk g (chunkOf (ix2 r q')) (ix2 (rowIn (ix2 r q')) q) = g (ix2 r q) := by
  show g ((Rect.unit (s := S1024x128) (k0_off3 (chunkOf (ix2 r q'))) S256x128.size (k0_off3_inb _)).idx (ix2 (rowIn (ix2 r q')) q)) = _
  refine congrArg g (funext fun a => Fin.ext ?_)
  match a with
  | ⟨0, _⟩ =>
    show k0_off3 (chunkOf (ix2 r q')) 0 + 1 * (r.val % 256) = r.val
    rw [k0_off3_eq]
    show 256 * (r.val / 256) + 1 * (r.val % 256) = r.val
    omega
  | ⟨1, _⟩ =>
    show k0_off3 (chunkOf (ix2 r q')) 1 + 1 * q.val = q.val
    rw [k0_off3_eq]
    show 0 + 1 * q.val = q.val
    omega

/-- The same for the adjacency block's rows. -/
theorem adjChunk_apply (x0 : Vec Ideal S1024x2048 .f32) (r : Fin 1024) (q' : Fin 128) (cc : Fin 2048) :
    adjChunk x0 (chunkOf (ix2 r q')) (ix2 (rowIn (ix2 r q')) cc) = x0 (ix2 r cc) := by
  show x0 ((Rect.unit (s := S1024x2048) (k0_off2 (chunkOf (ix2 r q'))) S256x2048.size (k0_off2_inb _)).idx (ix2 (rowIn (ix2 r q')) cc)) = _
  refine congrArg x0 (funext fun a => Fin.ext ?_)
  match a with
  | ⟨0, _⟩ =>
    show k0_off2 (chunkOf (ix2 r q')) 0 + 1 * (r.val % 256) = r.val
    rw [k0_off2_eq]
    show 256 * (r.val / 256) + 1 * (r.val % 256) = r.val
    omega
  | ⟨1, _⟩ =>
    show k0_off2 (chunkOf (ix2 r q')) 1 + 1 * cc.val = cc.val
    rw [k0_off2_eq]
    show 0 + 1 * cc.val = cc.val
    omega

/-- The first accumulator after the loop: what it held plus the row's sum over the block. -/
theorem loop8_apply (x0 : Vec Ideal S1024x2048 .f32) (g : Vec Ideal S1024x128 .f32) (r : Fin 1024) (q : Fin 128) :
    loop8 (F := Ideal) x0 g (ix2 r q) = g (ix2 r q) + ∑ cc : Fin 2048, x0 (ix2 r cc) := by
  unfold loop8
  refine (pay3_apply _ _ (rowIn (ix2 r q)) q).trans ?_
  rw [accChunk_apply g r q q]
  exact congrArg (g (ix2 r q) + ·) (Finset.sum_congr rfl fun cc _ => adjChunk_apply x0 r q cc)

/-- The second accumulator after the loop: what it held plus the row times the neighbour tile. -/
theorem loop9_apply (nb : Vec Ideal S2048x128 .f32) (x0 : Vec Ideal S1024x2048 .f32) (g : Vec Ideal S1024x128 .f32)
    (r : Fin 1024) (q : Fin 128) :
    loop9 (F := Ideal) nb x0 g (ix2 r q) = g (ix2 r q) + ∑ cc : Fin 2048, x0 (ix2 r cc) * nb (ix2 cc q) := by
  unfold loop9
  refine (pay4_apply nb _ _ (rowIn (ix2 r q)) q).trans ?_
  rw [accChunk_apply g r q q]
  exact congrArg (g (ix2 r q) + ·) (Finset.sum_congr rfl fun cc _ => congrArg (· * nb (ix2 cc q)) (adjChunk_apply x0 r q cc))

/-- The neighbour tile of a point: rows `2048·k + cc` of the neighbour features, `k` the point's column tile. -/
theorem nbTile_apply (i : grid0.Coords) (x1 : Vec Ideal S16384x128 .f32) (cc : Fin 2048) (q : Fin 128)
    (h : 2048 * (i 1).val + cc.val < 16384) :
    nbTile i x1 (ix2 cc q) = x1 (ix2 ⟨2048 * (i 1).val + cc.val, h⟩ q) := by
  show x1 ((Rect.unit (s := S16384x128) (k0_off1 i) S2048x128.size (k0_off1_inb i)).idx (ix2 cc q)) = _
  refine congrArg x1 (funext fun a => Fin.ext ?_)
  match a with
  | ⟨0, _⟩ =>
    show k0_off1 i 0 + 1 * cc.val = 2048 * (i 1).val + cc.val
    rw [k0_off1_eq]
    show 2048 * (i 1).val + 1 * cc.val = 2048 * (i 1).val + cc.val
    omega
  | ⟨1, _⟩ =>
    show k0_off1 i 1 + 1 * q.val = q.val
    rw [k0_off1_eq]
    show 0 + 1 * q.val = q.val
    omega

end Cert.KernelIdeal.IdealValue

end
-- ==== Proof.PointValues.lean ====
/-
  The two accumulators point by point, over the extended reals.

  The grid has 16 row stripes of 1024 rows times 8 column tiles of 2048 columns; point `n` is stripe `n / 8`, tile
  `n % 8`, and the tiles of a stripe are visited in order. At the first tile of a stripe the accumulators start from
  zero; at every other tile from what the tile before left. So after point `n`, at row `r` of the stripe,
    first accumulator   = ∑ over the tiles k ≤ n % 8 of ∑ cc, adj (1024·(n/8) + r, 2048·k + cc)
    second accumulator  = ∑ over the tiles k ≤ n % 8 of ∑ cc, adj (1024·(n/8) + r, 2048·k + cc) · nb (2048·k + cc, q)
  by induction on the point. Rows and columns of the whole arrays are addressed by natural numbers (zero outside
  the array), so that the tiles of a row are consecutive stretches of one sequence.
-/
import proofs.«171442_j19885698580662_2_alg».proof.Proof.IdealLoop
import proofs.«171442_j19885698580662_2_alg».proof.Proof.SageLayer
import proofs.«171442_j19885698580662_2_alg».proof.Proof.Gen.KernelIdeal.Value
import Idealize.ShloMosaic.Lib.Pipeline.Value

noncomputable section

namespace Cert.KernelIdeal.PointValue

open Idealize.ShloMosaic Idealize.ShloMosaic.TcCoe Idealize.ShloMosaic.ValueIdx Idealize.SL.Sem
open Cert.KernelIdeal Cert.KernelIdeal.Gen Cert.KernelIdeal.LoopValue Cert.KernelIdeal.CaseValue
open Cert.KernelIdeal.PayValue Cert.KernelIdeal.IdealValue

variable (m : (ℓ : Loc nD τ sig) → Buf (Elt Ideal) ℓ) (c : Dev nD)

/-- The four argument arrays on core `c`. -/
abbrev adjA : SageLayer.Adj := m ((c : Thread nD τ).loc main_arg0)
abbrev featA : SageLayer.Feat := m ((c : Thread nD τ).loc main_arg1)
abbrev nbA : SageLayer.Feat := m ((c : Thread nD τ).loc main_arg2)
abbrev wA : SageLayer.Wt := m ((c : Thread nD τ).loc main_arg3)

/-- Entry `(R, n)` of the adjacency matrix, zero outside it; entry `(n, q)` of the neighbour features, zero below them. -/
def rowA (R n : ℕ) : EReal := if h : R < 16384 ∧ n < 16384 then adjA m c (ix2 ⟨R, h.1⟩ ⟨n, h.2⟩) else 0
def nbAt (n : ℕ) (q : Fin 128) : EReal := if h : n < 16384 then nbA m c (ix2 ⟨n, h⟩ q) else 0

/-! ## What the frame's point-by-point contents are, case by case -/

/-- At the first tile of a stripe the first accumulator is the loop's result over zeros. -/
theorem first8 (n : ℕ) (h : n < cfg0.N) (h0 : n % 8 = 0) :
    (outsAt0 m c n h).2.1 = loop8 (iblk m c 0 ⟨n, h⟩) (k0_pay1 (F := Ideal)) := by
  have h1 : ¬n % 8 = 7 := by omega
  rw [outsAt0_A m c ⟨n, h⟩ h0 h1]
  exact sA0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _

theorem first9 (n : ℕ) (h : n < cfg0.N) (h0 : n % 8 = 0) :
    (outsAt0 m c n h).2.2 = loop9 (nbTile (grid0.coords ⟨n, h⟩) (iblk m c 1 ⟨n, h⟩)) (iblk m c 0 ⟨n, h⟩) (k0_pay2 (F := Ideal)) := by
  have h1 : ¬n % 8 = 7 := by omega
  rw [outsAt0_A m c ⟨n, h⟩ h0 h1]
  exact sA1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _

/-- At every other tile it is the loop's result over what the tile before left. -/
theorem step8 (n : ℕ) (h : n < cfg0.N) (h0 : ¬n % 8 = 0) :
    (outsAt0 m c n h).2.1 = loop8 (iblk m c 0 ⟨n, h⟩) (outsAt0 m c (n - 1) (Nat.lt_of_le_of_lt (Nat.sub_le _ _) h)).2.1 := by
  by_cases h1 : n % 8 = 7
  · rw [outsAt0_C m c ⟨n, h⟩ h0 h1]
    exact sC0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _ _ _
  · rw [outsAt0_B m c ⟨n, h⟩ h0 h1]
    exact sB0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _ _ _

theorem step9 (n : ℕ) (h : n < cfg0.N) (h0 : ¬n % 8 = 0) :
    (outsAt0 m c n h).2.2
      = loop9 (nbTile (grid0.coords ⟨n, h⟩) (iblk m c 1 ⟨n, h⟩)) (iblk m c 0 ⟨n, h⟩) (outsAt0 m c (n - 1) (Nat.lt_of_le_of_lt (Nat.sub_le _ _) h)).2.2 := by
  by_cases h1 : n % 8 = 7
  · rw [outsAt0_C m c ⟨n, h⟩ h0 h1]
    exact sC1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _ _ _
  · rw [outsAt0_B m c ⟨n, h⟩ h0 h1]
    exact sB1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) _ _ _ _

/-- At the last tile of a stripe the output block is `k0_pay5` of the two accumulators as that point leaves them. -/
theorem out_last (n : ℕ) (h : n < cfg0.N) (h1 : n % 8 = 7) :
    (outsAt0 m c n h).1
      = k0_pay5 (F := Ideal) (outsAt0 m c n h).2.1 (outsAt0 m c n h).2.2 (iblk m c 2 ⟨n, h⟩) (iblk m c 3 ⟨n, h⟩) (iblk m c 4 ⟨n, h⟩) := by
  have h0 : ¬n % 8 = 0 := by omega
  rw [show outsAt0 m c n h = _ from outsAt0_C m c ⟨n, h⟩ h0 h1]
  dsimp only
  rw [oC5 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) (fun h' => h0 ((hcond0_0 ⟨n, h⟩).mp h')) ((hcond0_1 ⟨n, h⟩).mpr h1) (outsAt0 m c (n - 1) (Nat.lt_of_le_of_lt (Nat.sub_le _ _) h)).2.1 (outsAt0 m c (n - 1) (Nat.lt_of_le_of_lt (Nat.sub_le _ _) h)).2.2,
    sC0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) (fun h' => h0 ((hcond0_0 ⟨n, h⟩).mp h')) ((hcond0_1 ⟨n, h⟩).mpr h1) (outsAt0 m c (n - 1) (Nat.lt_of_le_of_lt (Nat.sub_le _ _) h)).2.1 (outsAt0 m c (n - 1) (Nat.lt_of_le_of_lt (Nat.sub_le _ _) h)).2.2,
    sC1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _) scM0_1 (Memref.isWhole_whole _) (iblk m c 0 ⟨n, h⟩) (iblk m c 1 ⟨n, h⟩) (iblk m c 2 ⟨n, h⟩) (iblk m c 3 ⟨n, h⟩) (iblk m c 4 ⟨n, h⟩) (fun h' => h0 ((hcond0_0 ⟨n, h⟩).mp h')) ((hcond0_1 ⟨n, h⟩).mpr h1) (outsAt0 m c (n - 1) (Nat.lt_of_le_of_lt (Nat.sub_le _ _) h)).2.1 (outsAt0 m c (n - 1) (Nat.lt_of_le_of_lt (Nat.sub_le _ _) h)).2.2]

/-! ## The blocks a point reads, as entries of the arrays -/

/-- The windows' block indices and the body's column-tile coordinate at a point, decided over the grid. -/
theorem idx_facts : ∀ t : Fin cfg0.N,
    win0_0.index t (0 : Fin 2) = t.val / 8 ∧ win0_0.index t (1 : Fin 2) = t.val % 8
    ∧ win0_1.index t (0 : Fin 2) = 0 ∧ win0_1.index t (1 : Fin 2) = 0
    ∧ ((grid0.coords t) 1).val = t.val % 8 :=
  (by decide +kernel : ∀ t : Fin grid0.N, _)

/-- The adjacency block of point `n`: rows of stripe `n / 8`, columns of tile `n % 8`. -/
theorem adjBlk (n : ℕ) (h : n < cfg0.N) (r : Fin 1024) (cc : Fin 2048) :
    iblk m c 0 ⟨n, h⟩ (ix2 r cc) = rowA m c (1024 * (n / 8) + r.val) (2048 * (n % 8) + cc.val) := by
  have hN : n < 128 := lt_of_lt_of_eq h N_0
  have hR : 1024 * (n / 8) + r.val < 16384 ∧ 2048 * (n % 8) + cc.val < 16384 := by
    have := r.isLt; have := cc.isLt; omega
  obtain ⟨e0, e1, -⟩ := idx_facts ⟨n, h⟩
  unfold rowA
  rw [dif_pos hR]
  show V m c main_arg0 (((cfg0.win 0).blk ⟨n, h⟩).view.emb (ix2 r cc)) = _
  rw [V_main_arg0]
  refine congrArg (m ((c : Thread nD τ).loc main_arg0)) (funext fun a => Fin.ext ?_)
  match a with
  | ⟨0, _⟩ =>
    show win0_0.index ⟨n, h⟩ (0 : Fin 2) * 1024 + 1 * r.val = 1024 * (n / 8) + r.val
    rw [e0]; show n / 8 * 1024 + 1 * r.val = _; omega
  | ⟨1, _⟩ =>
    show win0_0.index ⟨n, h⟩ (1 : Fin 2) * 2048 + 1 * cc.val = 2048 * (n % 8) + cc.val
    rw [e1]; show n % 8 * 2048 + 1 * cc.val = _; omega

/-- The neighbour tile of point `n`: rows of tile `n % 8` of the neighbour features. -/
theorem nbBlk (n : ℕ) (h : n < cfg0.N) (cc : Fin 2048) (q : Fin 128) :
    nbTile (grid0.coords ⟨n, h⟩) (iblk m c 1 ⟨n, h⟩) (ix2 cc q) = nbAt m c (2048 * (n % 8) + cc.val) q := by
  have hN : n < 128 := lt_of_lt_of_eq h N_0
  obtain ⟨-, -, e2, e3, e4⟩ := idx_facts ⟨n, h⟩
  have e4' : ((grid0.coords ⟨n, h⟩) 1).val = n % 8 := e4
  have hR : 2048 * (n % 8) + cc.val < 16384 := by have := cc.isLt; omega
  rw [nbTile_apply (grid0.coords ⟨n, h⟩) (iblk m c 1 ⟨n, h⟩) cc q (by rw [e4']; exact hR)]
  unfold nbAt
  rw [dif_pos hR]
  show V m c main_arg2 (((cfg0.win 1).blk ⟨n, h⟩).view.emb _) = _
  rw [V_main_arg2]
  refine congrArg (m ((c : Thread nD τ).loc main_arg2)) (funext fun a => Fin.ext ?_)
  match a with
  | ⟨0, _⟩ =>
    show win0_1.index ⟨n, h⟩ (0 : Fin 2) * 16384 + 1 * (2048 * ((grid0.coords ⟨n, h⟩) 1).val + cc.val) = 2048 * (n % 8) + cc.val
    rw [e2, e4']; omega
  | ⟨1, _⟩ =>
    show win0_1.index ⟨n, h⟩ (1 : Fin 2) * 128 + 1 * q.val = q.val
    rw [e3]; omega

/-! ## The induction on the point -/

/-- The first accumulator after point `n`: the row's adjacency entries summed over the first `n % 8 + 1` column tiles. -/
theorem acc8_at : ∀ (n : ℕ) (h : n < cfg0.N) (r : Fin 1024) (q : Fin 128),
    (outsAt0 m c n h).2.1 (ix2 r q)
      = ∑ k ∈ Finset.range (n % 8 + 1), ∑ cc : Fin 2048, rowA m c (1024 * (n / 8) + r.val) (2048 * k + cc.val)
  | n, h, r, q => by
    by_cases h0 : n % 8 = 0
    · rw [first8 m c n h h0, loop8_apply, pay1_apply, zero_add]
      simp only [adjBlk m c n h r]
      rw [h0]
      exact (Finset.sum_range_one (fun k => ∑ cc : Fin 2048, rowA m c (1024 * (n / 8) + r.val) (2048 * k + cc.val))).symm
    · obtain ⟨n', rfl⟩ : ∃ n', n = n' + 1 := ⟨n - 1, by omega⟩
      have hprev : (n' + 1) % 8 = n' % 8 + 1 := by omega
      have hdiv : (n' + 1) / 8 = n' / 8 := by omega
      rw [step8 m c (n' + 1) h h0, loop8_apply]
      simp only [adjBlk m c (n' + 1) h r]
      show (outsAt0 m c n' _).2.1 (ix2 r q) + _ = _
      rw [acc8_at n' (Nat.lt_of_succ_lt h) r q, hprev, hdiv, Finset.sum_range_succ _ (n' % 8 + 1)]

/-- The second accumulator after point `n`: the row against the neighbour features over the same column tiles. -/
theorem acc9_at : ∀ (n : ℕ) (h : n < cfg0.N) (r : Fin 1024) (q : Fin 128),
    (outsAt0 m c n h).2.2 (ix2 r q)
      = ∑ k ∈ Finset.range (n % 8 + 1), ∑ cc : Fin 2048,
          rowA m c (1024 * (n / 8) + r.val) (2048 * k + cc.val) * nbAt m c (2048 * k + cc.val) q
  | n, h, r, q => by
    by_cases h0 : n % 8 = 0
    · rw [first9 m c n h h0, loop9_apply, pay2_apply, zero_add]
      simp only [adjBlk m c n h r, nbBlk m c n h]
      rw [h0]
      exact (Finset.sum_range_one (fun k => ∑ cc : Fin 2048, rowA m c (1024 * (n / 8) + r.val) (2048 * k + cc.val) * nbAt m c (2048 * k + cc.val) q)).symm
    · obtain ⟨n', rfl⟩ : ∃ n', n = n' + 1 := ⟨n - 1, by omega⟩
      have hprev : (n' + 1) % 8 = n' % 8 + 1 := by omega
      have hdiv : (n' + 1) / 8 = n' / 8 := by omega
      rw [step9 m c (n' + 1) h h0, loop9_apply]
      simp only [adjBlk m c (n' + 1) h r, nbBlk m c (n' + 1) h]
      show (outsAt0 m c n' _).2.2 (ix2 r q) + _ = _
      rw [acc9_at n' (Nat.lt_of_succ_lt h) r q, hprev, hdiv, Finset.sum_range_succ _ (n' % 8 + 1)]

end Cert.KernelIdeal.PointValue

end
-- ==== Proof.HostWeights.lean ====
/-
  The two weight blocks as the kernel finds them.

  Before the kernel is launched the host cuts the weight matrix `W`, of 128 rows and 256 columns, into its left and
  right halves of 128 columns each and transposes each half. So the first block at `(d, o)` is `W (o, d)` and the
  second block at `(d, o)` is `W (o, 128 + d)`: a transpose exchanges the two coordinates, and a slice that starts
  at column `0` or at column `128` shifts the column by that offset and leaves the row alone.
-/
import proofs.«171442_j19885698580662_2_alg».proof.Proof.Gen.KernelIdeal.Frame
import proofs.«171442_j19885698580662_2_alg».proof.Proof.SageLayer
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo

/-- The transposed left half of `W` at `(d, o)` is `W (o, d)`. -/
theorem left_half_apply (W : S128x256.Idx → EReal) (d o : Fin 128) :
    transpose S128x128 [1, 0] (extractStridedSlice S128x128 ![0, 0] W slices_S128x256_S128x128_0_0)
        transposes_S128x128_S128x128_1_0 (ix2 d o)
      = W (ix2 o (SageLayer.lo d)) := by
  refine (transpose_apply [1, 0] _ transposes_S128x128_S128x128_1_0 (ix2 d o) (ix2 o d)
    (fun b => match b with | ⟨0, _⟩ => rfl | ⟨1, _⟩ => rfl)).trans ?_
  exact extractStridedSlice_apply ![0, 0] W slices_S128x256_S128x128_0_0 (ix2 o d) (ix2 o (SageLayer.lo d))
    (fun a => match a with
      | ⟨0, _⟩ => by show o.val = 0 + o.val; omega
      | ⟨1, _⟩ => by show d.val = 0 + d.val; omega)

/-- The transposed right half of `W` at `(d, o)` is `W (o, 128 + d)`. -/
theorem right_half_apply (W : S128x256.Idx → EReal) (d o : Fin 128) :
    transpose S128x128 [1, 0] (extractStridedSlice S128x128 ![0, 128] W slices_S128x256_S128x128_0_128)
        transposes_S128x128_S128x128_1_0 (ix2 d o)
      = W (ix2 o (SageLayer.hi d)) := by
  refine (transpose_apply [1, 0] _ transposes_S128x128_S128x128_1_0 (ix2 d o) (ix2 o d)
    (fun b => match b with | ⟨0, _⟩ => rfl | ⟨1, _⟩ => rfl)).trans ?_
  exact extractStridedSlice_apply ![0, 128] W slices_S128x256_S128x128_0_128 (ix2 o d) (ix2 o (SageLayer.hi d))
    (fun a => match a with
      | ⟨0, _⟩ => by show o.val = 0 + o.val; omega
      | ⟨1, _⟩ => by show 128 + d.val = 128 + d.val; rfl)

variable (m : (ℓ : Loc nD τ sig) → Buf (Elt Ideal) ℓ) (c : Dev nD)

/-- The first weight block the kernel reads, at `(d, o)`: the weight matrix at `(o, d)`. -/
theorem w1_read (d o : Fin 128) :
    (V m c main_v1 : S128x128.Idx → EReal) (ix2 d o) = m ((c : Thread nD τ).loc main_arg3) (ix2 o (SageLayer.lo d)) := by
  have e : (V m c main_v1 : S128x128.Idx → EReal)
      = transpose S128x128 [1, 0] (extractStridedSlice S128x128 ![0, 0] (m ((c : Thread nD τ).loc main_arg3)) slices_S128x256_S128x128_0_0)
          transposes_S128x128_S128x128_1_0 := by
    dsimp only [Gen.V, Gen.hostOps0]; after_results
  exact (congrFun e (ix2 d o)).trans (left_half_apply _ d o)

/-- The second weight block the kernel reads, at `(d, o)`: the weight matrix at `(o, 128 + d)`. -/
theorem w2_read (d o : Fin 128) :
    (V m c main_v3 : S128x128.Idx → EReal) (ix2 d o) = m ((c : Thread nD τ).loc main_arg3) (ix2 o (SageLayer.hi d)) := by
  have e : (V m c main_v3 : S128x128.Idx → EReal)
      = transpose S128x128 [1, 0] (extractStridedSlice S128x128 ![0, 128] (m ((c : Thread nD τ).loc main_arg3)) slices_S128x256_S128x128_0_128)
          transposes_S128x128_S128x128_1_0 := by
    dsimp only [Gen.V, Gen.hostOps0]; after_results
  exact (congrFun e (ix2 d o)).trans (right_half_apply _ d o)

end Cert.KernelIdeal.HostValue

end
-- ==== Proof.LibTileSums.lean ====
/-
  Finite sums over consecutive naturals, regrouped.

  A sum over the first `n * b` naturals can be taken in `n` consecutive blocks of `b` terms each, block `k`
  holding the naturals `b * k, …, b * k + (b - 1)`; and a sum over the first `b + b` naturals is the sum over
  its lower half plus the sum over its upper half. Both hold in any commutative additive monoid, since there a
  finite sum depends neither on the order nor on the grouping of its terms. The summand is a function of the
  natural number itself, so the statements say nothing about how the index types are spelt.
-/
import Mathlib.Algebra.BigOperators.Fin
import Mathlib.Data.Fintype.BigOperators

namespace LibTileSums

open Finset

variable {M : Type*} [AddCommMonoid M]

/-- The sum of `g` over the naturals below `n * b` is the sum, over the `n` blocks `k`, of the sum of `g`
    over the `b` naturals `b * k + j` (`j < b`) of block `k`: by induction on the number of blocks, the last
    block being split off by `Finset.sum_range_add`. -/
theorem sum_range_tiles (n b : ℕ) (g : ℕ → M) :
    ∑ i ∈ range (n * b), g i = ∑ k ∈ range n, ∑ j ∈ range b, g (b * k + j) := by
  induction n with
  | zero => simp
  | succ n ih => rw [Nat.succ_mul, sum_range_add, ih, sum_range_succ, Nat.mul_comm n b]

/-- A sum over `N = n * b` consecutive naturals, written over `Fin N`, taken in `n` blocks of `b`: the block
    index `k` runs over `range n` and the position `j` inside a block over `Fin b`, the term being `g` at the
    natural `b * k + j`. -/
theorem sum_tiles (n b N : ℕ) (hN : N = n * b) (g : ℕ → M) :
    ∑ c : Fin N, g c.val = ∑ k ∈ Finset.range n, ∑ j : Fin b, g (b * k + j.val) := by
  subst hN
  rw [Fin.sum_univ_eq_sum_range g (n * b), sum_range_tiles]
  exact sum_congr rfl fun k _ => (Fin.sum_univ_eq_sum_range (fun j => g (b * k + j)) b).symm

/-- A sum over `b + b` consecutive naturals, written over `Fin (b + b)`, is the sum over the lower half (the
    naturals `d`, `d < b`) plus the sum over the upper half (the naturals `b + d`, `d < b`). -/
theorem sum_halves (b : ℕ) (g : ℕ → M) :
    ∑ j : Fin (b + b), g j.val = ∑ d : Fin b, g d.val + ∑ d : Fin b, g (b + d.val) := by
  rw [Fin.sum_univ_add]
  simp only [Fin.val_castAdd, Fin.val_natAdd]

end LibTileSums
-- ==== Proof.LayerBlocks.lean ====
/-
  The result array after the run is the layer.

  At the last column tile of row stripe `s` the body stores the output block, whose entry `(r, o)` is the layer at
  node `1024·s + r`: by then the first accumulator holds the node's whole adjacency row summed (its eight tiles of 2048
  columns are the row's 16384 columns, taken in order), the second the row against all the neighbour features, and
  the block is their quotient — with one added to the degree — contracted with the second half of `W`'s row `o`, plus
  the node's own features contracted with the first half. That block is written back to rows `[1024·s, 1024·s + 1024)`
  of the result; the sixteen stripes' blocks cover the array, so it ends holding the layer at every node.
-/
import proofs.«171442_j19885698580662_2_alg».proof.Proof.PointValues
import proofs.«171442_j19885698580662_2_alg».proof.Proof.HostWeights
import proofs.«171442_j19885698580662_2_alg».proof.Proof.LibTileSums
import Idealize.ShloMosaic.Lib.Pipeline.Value

noncomputable section

namespace Cert.KernelIdeal.LayerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.PayValue Cert.KernelIdeal.PointValue Cert.KernelIdeal.HostValue

variable (m : (ℓ : Loc nD τ sig) → Buf (Elt Ideal) ℓ) (ρ : Dev nD → PrngReg) (c : Dev nD)

/-! ## The eight column tiles of a row are the row -/

theorem deg_tiles (R : ℕ) (hR : R < 16384) :
    ∑ k ∈ Finset.range (7 + 1), ∑ cc : Fin 2048, rowA m c R (2048 * k + cc.val)
      = ∑ c' : Fin 16384, adjA m c (ix2 ⟨R, hR⟩ c') :=
  (LibTileSums.sum_tiles 8 2048 16384 (by norm_num) (rowA m c R)).symm.trans
    (Finset.sum_congr rfl fun c' _ => by unfold rowA; rw [dif_pos ⟨hR, c'.isLt⟩])

theorem gath_tiles (R : ℕ) (hR : R < 16384) (d : Fin 128) :
    ∑ k ∈ Finset.range (7 + 1), ∑ cc : Fin 2048, rowA m c R (2048 * k + cc.val) * nbAt m c (2048 * k + cc.val) d
      = SageLayer.gathered (adjA m c) (nbA m c) ⟨R, hR⟩ d :=
  (LibTileSums.sum_tiles 8 2048 16384 (by norm_num) (fun n => rowA m c R n * nbAt m c n d)).symm.trans
    (Finset.sum_congr rfl fun c' _ => by unfold rowA nbAt; rw [dif_pos ⟨hR, c'.isLt⟩, dif_pos c'.isLt])

/-! ## The other blocks a point reads -/

/-- The feature, weight and output windows' block indices at a point, decided over the grid. -/
theorem idx_facts' : ∀ t : Fin cfg0.N,
    win0_2.index t (0 : Fin 2) = t.val / 8 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

/-- The feature block of point `n`: rows of stripe `n / 8`. -/
theorem featBlk (n : ℕ) (h : n < cfg0.N) (r : Fin 1024) (hR : 1024 * (n / 8) + r.val < 16384) (d : Fin 128) :
    iblk m c 2 ⟨n, h⟩ (ix2 r d) = featA m c (ix2 ⟨1024 * (n / 8) + r.val, hR⟩ d) := by
  obtain ⟨e0, e1, -⟩ := idx_facts' ⟨n, h⟩
  show V m c main_arg1 (((cfg0.win 2).blk ⟨n, h⟩).view.emb (ix2 r d)) = _
  rw [V_main_arg1]
  refine congrArg (m ((c : Thread nD τ).loc main_arg1)) (funext fun a => Fin.ext ?_)
  match a with
  | ⟨0, _⟩ =>
    show win0_2.index ⟨n, h⟩ (0 : Fin 2) * 1024 + 1 * r.val = 1024 * (n / 8) + r.val
    rw [e0]; show n / 8 * 1024 + 1 * r.val = _; omega
  | ⟨1, _⟩ =>
    show win0_2.index ⟨n, h⟩ (1 : Fin 2) * 128 + 1 * d.val = d.val
    rw [e1]; omega

/-- The first weight half at every point: `W`'s first 128 columns, transposed. -/
theorem w1Blk (n : ℕ) (h : n < cfg0.N) (d o : Fin 128) :
    iblk m c 3 ⟨n, h⟩ (ix2 d o) = wA m c (ix2 o (SageLayer.lo d)) := by
  obtain ⟨-, -, e2, e3, -⟩ := idx_facts' ⟨n, h⟩
  refine Eq.trans ?_ (w1_read m c d o)
  show (V m c main_v1 : S128x128.Idx → EReal) (((cfg0.win 3).blk ⟨n, h⟩).view.emb (ix2 d o)) = (V m c main_v1 : S128x128.Idx → EReal) (ix2 d o)
  refine congrArg (V m c main_v1 : S128x128.Idx → EReal) (funext fun a => Fin.ext ?_)
  match a with
  | ⟨0, _⟩ =>
    show win0_3.index ⟨n, h⟩ (0 : Fin 2) * 128 + 1 * d.val = d.val
    rw [e2]; omega
  | ⟨1, _⟩ =>
    show win0_3.index ⟨n, h⟩ (1 : Fin 2) * 128 + 1 * o.val = o.val
    rw [e3]; omega

/-- The second weight half: `W`'s last 128 columns, transposed. -/
theorem w2Blk (n : ℕ) (h : n < cfg0.N) (d o : Fin 128) :
    iblk m c 4 ⟨n, h⟩ (ix2 d o) = wA m c (ix2 o (SageLayer.hi d)) := by
  obtain ⟨-, -, -, -, e4, e5, -⟩ := idx_facts' ⟨n, h⟩
  refine Eq.trans ?_ (w2_read m c d o)
  show (V m c main_v3 : S128x128.Idx → EReal) (((cfg0.win 4).blk ⟨n, h⟩).view.emb (ix2 d o)) = (V m c main_v3 : S128x128.Idx → EReal) (ix2 d o)
  refine congrArg (V m c main_v3 : S128x128.Idx → EReal) (funext fun a => Fin.ext ?_)
  match a with
  | ⟨0, _⟩ =>
    show win0_4.index ⟨n, h⟩ (0 : Fin 2) * 128 + 1 * d.val = d.val
    rw [e4]; omega
  | ⟨1, _⟩ =>
    show win0_4.index ⟨n, h⟩ (1 : Fin 2) * 128 + 1 * o.val = o.val
    rw [e5]; omega

/-! ## The output block is the layer's rows of the stripe -/

theorem out_at (n : ℕ) (h : n < cfg0.N) (h1 : n % 8 = 7) (r : Fin 1024) (o : Fin 128) (hR : 1024 * (n / 8) + r.val < 16384) :
    (outsAt0 m c n h).1 (ix2 r o) = SageLayer.layerAt (adjA m c) (featA m c) (nbA m c) (wA m c) ⟨1024 * (n / 8) + r.val, hR⟩ o := by
  rw [out_last m c n h h1, pay5_apply]
  simp only [featBlk m c n h r hR, w1Blk m c n h, w2Blk m c n h, acc8_at m c n h r, acc9_at m c n h r, h1,
    deg_tiles m c _ hR, gath_tiles m c _ hR]
  rfl

/-- The same at any index of the block. -/
theorem out_at' (n : ℕ) (h : n < cfg0.N) (h1 : n % 8 = 7) (j : S1024x128.Idx) (hR : 1024 * (n / 8) + (j 0).val < 16384) :
    (outsAt0 m c n h).1 j = SageLayer.layerAt (adjA m c) (featA m c) (nbA m c) (wA m c) ⟨1024 * (n / 8) + (j 0).val, hR⟩ (j 1) := by
  obtain ⟨r, o, rfl⟩ : ∃ (r : Fin 1024) (o : Fin 128), j = ix2 r o := ⟨j 0, j 1, eq_ix2 j⟩
  exact out_at m c n h h1 r o hR

/-! ## From the blocks to the array -/

/-- What a flushing point writes back is its block of the layer. -/
theorem flushed_eq (t : Fin cfg0.N) (hf : (cfg0.win 5).flush t = true) :
    (dats m 0 c).flushed 5 t = ((cfg0.win 5).blk t).view.read (Elt Ideal) (SageLayer.layer (adjA m c) (featA m c) (nbA m c) (wA m c)) := by
  have h1 : t.val % 8 = 7 := (flush0_5 t).mp hf
  have hN : t.val < 128 := lt_of_lt_of_eq t.isLt N_0
  obtain ⟨-, -, -, -, -, -, e6, e7⟩ := idx_facts' t
  rw [Cert.KernelIdeal.Value.flushed5]
  funext j
  have hj0 : (j 0).val < 1024 := (j 0).isLt
  have hR : 1024 * (t.val / 8) + (j 0).val < 16384 := by omega
  show (outsAt0 m c t.val t.isLt).1 j = SageLayer.layer (adjA m c) (featA m c) (nbA m c) (wA m c) (((cfg0.win 5).blk t).view.emb j)
  refine (out_at' m c t.val t.isLt h1 j hR).trans ?_
  show _ = SageLayer.layerAt (adjA m c) (featA m c) (nbA m c) (wA m c) ((((cfg0.win 5).blk t).view.emb j) 0) ((((cfg0.win 5).blk t).view.emb j) 1)
  congr 1 <;> apply Fin.ext
  · show 1024 * (t.val / 8) + (j 0).val = win0_5.index t (0 : Fin 2) * 1024 + 1 * (j 0).val
    rw [e6]; omega
  · show (j 1).val = win0_5.index t (1 : Fin 2) * 128 + 1 * (j 1).val
    rw [e7]; omega

/-- An index of the result is in point `t`'s block iff each coordinate is in the block's range on its axis. -/
theorem mem_blk (t : Fin cfg0.N) (i : S16384x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v4).slice (win0_5.rect t)).set ↔ _
  rw [View.set_slice_whole, Rect.mem_set_unit]
  exact Iff.rfl

/-- Every row of the result lies in the block of its stripe's last tile. -/
theorem cover (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 128 := N_0
  have ht : 8 * ((i 0).val / 1024) + 7 < cfg0.N := by rw [hN]; omega
  obtain ⟨-, -, -, -, -, -, e6, e7⟩ := idx_facts' ⟨8 * ((i 0).val / 1024) + 7, ht⟩
  refine ⟨⟨8 * ((i 0).val / 1024) + 7, ht⟩, (flush0_5 _).mpr (by show (8 * ((i 0).val / 1024) + 7) % 8 = 7; omega), ?_⟩
  rw [mem_blk]
  intro a
  match a with
  | ⟨0, _⟩ =>
    show win0_5.index ⟨8 * ((i 0).val / 1024) + 7, ht⟩ (0 : Fin 2) * 1024 ≤ (i 0).val ∧ (i 0).val < win0_5.index ⟨8 * ((i 0).val / 1024) + 7, ht⟩ (0 : Fin 2) * 1024 + 1024
    rw [e6]; show (8 * ((i 0).val / 1024) + 7) / 8 * 1024 ≤ (i 0).val ∧ (i 0).val < (8 * ((i 0).val / 1024) + 7) / 8 * 1024 + 1024; omega
  | ⟨1, _⟩ =>
    show win0_5.index ⟨8 * ((i 0).val / 1024) + 7, ht⟩ (1 : Fin 2) * 128 ≤ (i 1).val ∧ (i 1).val < win0_5.index ⟨8 * ((i 0).val / 1024) + 7, ht⟩ (1 : Fin 2) * 128 + 128
    rw [e7]; omega

/-- The result array after the run is the layer. -/
theorem final : (dats m 0 c).arrAt 5 cfg0.N = SageLayer.layer (adjA m c) (featA m c) (nbA m c) (wA m c) :=
  (dats m 0 c).arrAt_eq_of_cover 5 (SageLayer.layer (adjA m c) (featA m c) (nbA m c) (wA m c)) (fun t hf => flushed_eq m c t hf) (cover)

/-- The run, read: the result at the layer of the argument arrays, the arguments unchanged. -/
theorem run : θ_run defs (onTc (τ := τ) (main (F := Ideal))) ⟨m, fun _ => 0, ρ⟩ fun r => ∀ c : Dev nD,
      r.2.mem ((c : Thread nD τ).loc main_v4) = SageLayer.layer (adjA m c) (featA m c) (nbA m c) (wA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.LayerValue

end
-- ==== Proof.ReferenceIsLayer.lean ====
/-
  The reference program's result is the layer.

  Read index by index, the reference's last stage is a contraction over the 256 columns of the joined array
  `[feat | nf]` with the transposed weights: at node `r` and output feature `o`
      ∑ k < 256, joined (r, k) · W (o, k).
  The 256 columns are the 128 columns of `feat` followed by the 128 columns of `nf`, so the sum is the sum over
  its lower half, where the joined array is `feat (r, d)`, plus the sum over its upper half, where it is
  `nf (r, d)` at column `128 + d`. In turn `nf (r, d)` is the quotient of `∑ c, adj (r, c) · nb (c, d)` by the row
  sum of `adj` plus the constant one, the row sum starting from the zero word, which denotes `0`. These are the
  terms of `SageLayer.layerAt`, so the two arrays are equal. Only index equations and the splitting of one finite sum
  are used; no sum over the nodes is ever expanded, and the word of `1.0` is never evaluated.
-/
import proofs.«171442_j19885698580662_2_alg».proof.Proof.Gen.ReferenceIdeal.Read
import proofs.«171442_j19885698580662_2_alg».proof.Proof.SageLayer
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- A sum over the 256 columns is the sum over the lower 128 plus the sum over the upper 128. -/
theorem sum_256 {M : Type*} [AddCommMonoid M] (f : Fin 256 → M) :
    ∑ j : Fin 256, f j = ∑ d : Fin 128, f (SageLayer.lo d) + ∑ d : Fin 128, f (SageLayer.hi d) :=
  Fin.sum_univ_add (a := 128) (b := 128) f

/-- The transposed weights at (k, o) are the weights at (o, k). -/
theorem v8_read (W : SageLayer.Wt) (r : Fin 16384) (o : Fin 128) (k : Fin 256) :
    val_main_v8 (F := Ideal) W (ridx_main_v9 (ix2 r o) k) = W (ix2 o k) := by
  rw [val_main_v8_apply]
  exact congrArg W (funext fun a => Fin.ext (by match a with | ⟨0, _⟩ => rfl | ⟨1, _⟩ => rfl))

/-- The broadcast degree at (r, d): the row sum of `adj` from `0`, plus the constant one. -/
theorem v5_read (adj : SageLayer.Adj) (r : Fin 16384) (d : Fin 128) :
    val_main_v5 (F := Ideal) adj (ix2 r d) = SageLayer.degree adj r := by
  rw [val_main_v5_apply, val_main_v3_apply, val_main_v1_apply, val_main_v0_apply, val_main_cst_apply,
    val_main_v2_apply, val_main_cst_0_apply]
  simp only [Ideal.addf_def, Ideal.ofBits_def, Ideal.ofBits_zero_f32, zero_add]
  unfold SageLayer.degree
  refine congrArg (· + SageLayer.one) (Finset.sum_congr rfl fun c _ => ?_)
  exact congrArg adj (funext fun a => Fin.ext (by match a with | ⟨0, _⟩ => rfl | ⟨1, _⟩ => rfl))

/-- The first contraction at (r, d): the neighbours' features weighted by row `r` of `adj`. -/
theorem v4_read (adj : SageLayer.Adj) (nb : SageLayer.Feat) (r : Fin 16384) (d : Fin 128) :
    val_main_v4 (F := Ideal) adj nb (ix2 r d) = SageLayer.gathered adj nb r d := by
  rw [val_main_v4_apply]
  unfold SageLayer.gathered
  refine Finset.sum_congr rfl fun c _ => ?_
  refine congrArg₂ (· * ·) (congrArg adj ?_) (congrArg nb ?_)
  · exact funext fun a => Fin.ext (by match a with | ⟨0, _⟩ => rfl | ⟨1, _⟩ => rfl)
  · exact funext fun a => Fin.ext (by match a with | ⟨0, _⟩ => rfl | ⟨1, _⟩ => rfl)

/-- The quotient at (r, d) is the degree-normalised neighbour feature. -/
theorem v6_read (adj : SageLayer.Adj) (nb : SageLayer.Feat) (r : Fin 16384) (d : Fin 128) :
    val_main_v6 (F := Ideal) adj nb (ix2 r d) = SageLayer.mean adj nb r d := by
  rw [val_main_v6_apply, v4_read, v5_read, Ideal.hostDivf_def]
  rfl

/-- In its lower 128 columns the joined array is `feat`. -/
theorem v7_left (adj : SageLayer.Adj) (feat nb : SageLayer.Feat) (r : Fin 16384) (o d : Fin 128) :
    val_main_v7 (F := Ideal) adj feat nb (lidx_main_v9 (ix2 r o) (SageLayer.lo d)) = feat (ix2 r d) := by
  unfold val_main_v7
  exact concatenate_pair_apply_left (1 : Fin S16384x256.rank) feat (val_main_v6 (F := Ideal) adj nb)
    concatenates_S16384x128_S16384x128_S16384x256_d1 _ rfl (ix2 r d)
    (fun b => match b with | ⟨0, _⟩ => rfl | ⟨1, _⟩ => rfl)

/-- In its upper 128 columns the joined array is the quotient, read 128 columns lower. -/
theorem v7_right (adj : SageLayer.Adj) (feat nb : SageLayer.Feat) (r : Fin 16384) (o d : Fin 128) :
    val_main_v7 (F := Ideal) adj feat nb (lidx_main_v9 (ix2 r o) (SageLayer.hi d))
      = val_main_v6 (F := Ideal) adj nb (ix2 r d) := by
  unfold val_main_v7
  exact concatenate_pair_apply_right (1 : Fin S16384x256.rank) feat (val_main_v6 (F := Ideal) adj nb)
    concatenates_S16384x128_S16384x128_S16384x256_d1 _ rfl rfl (ix2 r d)
    (fun b hb => match b, hb with | ⟨0, _⟩, _ => rfl | ⟨1, _⟩, hb => absurd rfl hb)
    (Nat.add_comm d.val 128)

/-- The reference program's result, at the extended reals, is the layer of its four arguments. -/
theorem result_eq (adj : SageLayer.Adj) (feat nb : SageLayer.Feat) (W : SageLayer.Wt) :
    Cert.ReferenceIdeal.Read.val_main_v9 (F := Ideal) adj feat nb W = SageLayer.layer adj feat nb W := by
  funext i
  obtain ⟨r, o, rfl⟩ : ∃ (r : Fin 16384) (o : Fin 128), i = ix2 r o := ⟨i 0, i 1, eq_ix2 i⟩
  rw [val_main_v9_apply, SageLayer.layer_ix2]
  unfold SageLayer.layerAt
  refine (sum_256 _).trans (congrArg₂ (· + ·) (Finset.sum_congr rfl fun d _ => ?_) (Finset.sum_congr rfl fun d _ => ?_))
  · rw [v7_left, v8_read]
  · rw [v7_right, v6_read, v8_read]

end Cert.ReferenceIdeal.RefValue

end
-- ==== Proof.lean ====
/-
  The graph layer of the kernel and of its reference are one function over the extended reals.

  Both programs take an adjacency matrix `adj` [16384, 16384], node features `feat` and neighbour features `nb`
  [16384, 128] and a weight matrix `W` [128, 256], and return, for node `r` and output feature `o`,
      ∑ d, feat r d · W o d  +  ∑ d, mean r d · W o (128 + d),     mean r d = (∑ c, adj r c · nb c d) / ((∑ c, adj r c) + 1)
  (the specification `SageLayer.layer`).

  The reference computes it with whole-array operations: a row sum, a matrix product, a quotient, a concatenation of
  `feat` and `mean` along the feature axis and a second matrix product against `W` transposed; its contraction over
  256 columns is the sum of the two contractions over 128.

  The kernel walks a grid of 16 row stripes by 8 column tiles. On each tile it adds, into two accumulators it keeps
  from tile to tile, the stripe's row sums over the tile's 2048 columns and the product of the tile with the matching
  2048 neighbour rows, 256 rows at a time; at the first tile of a stripe the accumulators start from zero, and at the
  last it divides, contracts with the two halves of `W` and stores the stripe's output block. The eight tiles of a row
  are its 16384 columns in order, so the accumulators end at the whole sums. Only the commutative-monoid laws of
  finite sums are used: the orders and groupings of the two programs' sums differ, nothing else does, and the
  entries need not be finite for that.

  The three frames are the programs' own runs with the results dropped; the idealization rewrote nothing.
-/
import proofs.«171442_j19885698580662_2_alg».proof.Defs
import proofs.«171442_j19885698580662_2_alg».proof.Proof.Gen.Kernel
import proofs.«171442_j19885698580662_2_alg».proof.Proof.Gen.Kernel.Skeleton
import proofs.«171442_j19885698580662_2_alg».proof.Proof.Gen.Kernel.Loops
import proofs.«171442_j19885698580662_2_alg».proof.Proof.Gen.Kernel.Launch
import proofs.«171442_j19885698580662_2_alg».proof.Proof.Gen.Kernel.Points
import proofs.«171442_j19885698580662_2_alg».proof.Proof.Gen.Kernel.Frame
import proofs.«171442_j19885698580662_2_alg».proof.Proof.Gen.KernelIdeal
import proofs.«171442_j19885698580662_2_alg».proof.Proof.Gen.KernelIdeal.Skeleton
import proofs.«171442_j19885698580662_2_alg».proof.Proof.Gen.KernelIdeal.Loops
import proofs.«171442_j19885698580662_2_alg».proof.Proof.Gen.KernelIdeal.Launch
import proofs.«171442_j19885698580662_2_alg».proof.Proof.Gen.KernelIdeal.Points
import proofs.«171442_j19885698580662_2_alg».proof.Proof.Gen.KernelIdeal.Frame
import proofs.«171442_j19885698580662_2_alg».proof.Proof.Gen.ReferenceIdeal
import proofs.«171442_j19885698580662_2_alg».proof.Proof.Gen.Pre_finite_inputs
import proofs.«171442_j19885698580662_2_alg».proof.Proof.Gen.KernelIdeal.Value
import proofs.«171442_j19885698580662_2_alg».proof.Proof.Gen.ReferenceIdeal.Run
import proofs.«171442_j19885698580662_2_alg».proof.Proof.Gen.ReferenceIdeal.Read
import proofs.«171442_j19885698580662_2_alg».proof.Proof.LayerBlocks
import proofs.«171442_j19885698580662_2_alg».proof.Proof.ReferenceIsLayer
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the layer of its arguments and the reference's at the
    layer of arguments that agree with them: the same array. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
